-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1200000 : Shape := ⟨2, ![2, 1200000]⟩
abbrev S2x500000 : Shape := ⟨2, ![2, 500000]⟩
abbrev S128x64 : Shape := ⟨2, ![128, 64]⟩
abbrev S64 : Shape := ⟨1, ![64]⟩
abbrev S64x64 : Shape := ⟨2, ![64, 64]⟩
abbrev S256x64 : Shape := ⟨2, ![256, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S256x64 : S_.BroadcastsInDim S256x64 (![] : Fin 0 → Fin S256x64.rank)
  reducesTo_S256x64_S_d0_1 : S256x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S64 .f32) (main_arg7 : FVec F S256x64 .f32) (main_arg8 : FVec F S64 .f32) (main_arg9 : FVec F S64x1 .f32) (main_arg10 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S256x64 .f32 := Host.absf main_arg7
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1200000 32) (main_arg2 : IVec S2x500000 32) (main_arg3 : FVec F S128x64 .f32) (main_arg4 : FVec F S64 .f32) (main_arg5 : FVec F S64x64 .f32) (main_arg6 : FVec F S64 .f32) (main_arg7 : FVec F S256x64 .f32) (main_arg8 : FVec F S64 .f32) (main_arg9 : FVec F S64x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1200000 : Shape := ⟨2, ![2, 1200000]⟩
abbrev S2x500000 : Shape := ⟨2, ![2, 500000]⟩
abbrev S128x64 : Shape := ⟨2, ![128, 64]⟩
abbrev S64 : Shape := ⟨1, ![64]⟩
abbrev S64x64 : Shape := ⟨2, ![64, 64]⟩
abbrev S256x64 : Shape := ⟨2, ![256, 64]⟩
abbrev S64x1 : Shape := ⟨2, ![64, 1]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S100000x64 : Shape := ⟨2, ![100000, 64]⟩
abbrev S5000x128 : Shape := ⟨2, ![5000, 128]⟩
abbrev S5000x64 : Shape := ⟨2, ![5000, 64]⟩
abbrev S1200000x64 : Shape := ⟨2, ![1200000, 64]⟩
abbrev S5000x1 : Shape := ⟨2, ![5000, 1]⟩
abbrev S1x64 : Shape := ⟨2, ![1, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩
abbrev S5000x256 : Shape := ⟨2, ![5000, 256]⟩
abbrev S1x1 : Shape := ⟨2, ![1, 1]⟩

abbrev nBuf : Space → Nat
  | .hbm => 105
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S2x1200000, .i32⟩
  | .hbm, ⟨2, _⟩ => ⟨S2x500000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S256x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S1x1200000, .i32⟩
  | .hbm, ⟨12, _⟩ => ⟨S1200000, .i32⟩
  | .hbm, ⟨13, _⟩ => ⟨S1x1200000, .i32⟩
  | .hbm, ⟨14, _⟩ => ⟨S1200000, .i32⟩
  | .hbm, ⟨15, _⟩ => ⟨S_, .f32⟩
  | .hbm, ⟨16, _⟩ => ⟨S1200000, .f32⟩
  | .hbm, ⟨17, _⟩ => ⟨S_, .f32⟩
  | .hbm, ⟨18, _⟩ => ⟨S100000, .f32⟩
  | .hbm, ⟨19, _⟩ => ⟨S1200000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1200000, .i32⟩
  | .hbm, ⟨27, _⟩ => ⟨S1200000, .i1⟩
  | .hbm, ⟨28, _⟩ => ⟨S_, .i32⟩
  | .hbm, ⟨29, _⟩ => ⟨S1200000, .i32⟩
  | .hbm, ⟨30, _⟩ => ⟨S1200000, .i32⟩
  | .hbm, ⟨31, _⟩ => ⟨S1200000, .i32⟩
  | .hbm, ⟨32, _⟩ => ⟨S1200000x1, .i32⟩
  | .hbm, ⟨33, _⟩ => ⟨S1200000, .f32⟩
  | .hbm, ⟨34, _⟩ => ⟨S_, .i32⟩
  | .hbm, ⟨35, _⟩ => ⟨S1200000, .i32⟩
  | .hbm, ⟨36, _⟩ => ⟨S1200000, .i1⟩
  | .hbm, ⟨37, _⟩ => ⟨S_, .i32⟩
  | .hbm, ⟨38, _⟩ => ⟨S1200000, .i32⟩
  | .hbm, ⟨39, _⟩ => ⟨S1200000, .i32⟩
  | .hbm, ⟨40, _⟩ => ⟨S1200000, .i32⟩
  | .hbm, ⟨41, _⟩ => ⟨S1200000x1, .i32⟩
  | .hbm, ⟨42, _⟩ => ⟨S1200000, .f32⟩
  | .hbm, ⟨43, _⟩ => ⟨S1200000, .f32⟩
  | .hbm, ⟨44, _⟩ => ⟨S100000x1, .f32⟩
  | .hbm, ⟨45, _⟩ => ⟨S100000x64, .f32⟩
  | .hbm, ⟨46, _⟩ => ⟨S_, .i32⟩
  | .hbm, ⟨47, _⟩ => ⟨S1200000, .i32⟩
  | .hbm, ⟨48, _⟩ => ⟨S1200000, .i1⟩
  | .hbm, ⟨49, _⟩ => ⟨S_, .i32⟩
  | .hbm, ⟨50, _⟩ => ⟨S1200000, .i32⟩
  | .hbm, ⟨51, _⟩ => ⟨S1200000, .i32⟩
  | .hbm, ⟨52, _⟩ => ⟨S1200000, .i32⟩
  | .hbm, ⟨53, _⟩ => ⟨S1200000x1, .i32⟩
  | .hbm, ⟨54, _⟩ => ⟨S1200000x64, .f32⟩
  | .hbm, ⟨55, _⟩ => ⟨S1200000x1, .f32⟩
  | .hbm, ⟨56, _⟩ => ⟨S1200000x64, .f32⟩
  | .hbm, ⟨57, _⟩ => ⟨S1200000x64, .f32⟩
  | .hbm, ⟨58, _⟩ => ⟨S_, .f32⟩
  | .hbm, ⟨59, _⟩ => ⟨S100000x64, .f32⟩
  | .hbm, ⟨60, _⟩ => ⟨S1200000x1, .i32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S_, .i32⟩
  | .hbm, ⟨65, _⟩ => ⟨S1200000, .i32⟩
  | .hbm, ⟨66, _⟩ => ⟨S1200000, .i1⟩
  | .hbm, ⟨67, _⟩ => ⟨S_, .i32⟩
  | .hbm, ⟨68, _⟩ => ⟨S1200000, .i32⟩
  | .hbm, ⟨69, _⟩ => ⟨S1200000, .i32⟩
  | .hbm, ⟨70, _⟩ => ⟨S1200000, .i32⟩
  | .hbm, ⟨71, _⟩ => ⟨S1200000x1, .i32⟩
  | .hbm, ⟨72, _⟩ => ⟨S1200000x64, .f32⟩
  | .hbm, ⟨73, _⟩ => ⟨S1200000x1, .f32⟩
  | .hbm, ⟨74, _⟩ => ⟨S1200000x64, .f32⟩
  | .hbm, ⟨75, _⟩ => ⟨S1200000x64, .f32⟩
  | .hbm, ⟨76, _⟩ => ⟨S_, .f32⟩
  | .hbm, ⟨77, _⟩ => ⟨S100000x64, .f32⟩
  | .hbm, ⟨78, _⟩ => ⟨S1200000x1, .i32⟩
  | .hbm, ⟨79, _⟩ => ⟨S100000x64, .f32⟩
  | .hbm, ⟨80, _⟩ => ⟨S100000x64, .f32⟩
  | .hbm, ⟨81, _⟩ => ⟨S1x500000, .i32⟩
  | .hbm, ⟨82, _⟩ => ⟨S500000, .i32⟩
  | .hbm, ⟨83, _⟩ => ⟨S1x500000, .i32⟩
  | .hbm, ⟨84, _⟩ => ⟨S500000, .i32⟩
  | .hbm, ⟨85, _⟩ => ⟨S_, .i32⟩
  | .hbm, ⟨86, _⟩ => ⟨S500000, .i32⟩
  | .hbm, ⟨87, _⟩ => ⟨S500000, .i1⟩
  | .hbm, ⟨88, _⟩ => ⟨S_, .i32⟩
  | .hbm, ⟨89, _⟩ => ⟨S500000, .i32⟩
  | .hbm, ⟨90, _⟩ => ⟨S500000, .i32⟩
  | .hbm, ⟨91, _⟩ => ⟨S500000, .i32⟩
  | .hbm, ⟨92, _⟩ => ⟨S500000x1, .i32⟩
  | .hbm, ⟨93, _⟩ => ⟨S500000x64, .f32⟩
  | .hbm, ⟨94, _⟩ => ⟨S_, .i32⟩
  | .hbm, ⟨95, _⟩ => ⟨S500000, .i32⟩
  | .hbm, ⟨96, _⟩ => ⟨S500000, .i1⟩
  | .hbm, ⟨97, _⟩ => ⟨S_, .i32⟩
  | .hbm, ⟨98, _⟩ => ⟨S500000, .i32⟩
  | .hbm, ⟨99, _⟩ => ⟨S500000, .i32⟩
  | .hbm, ⟨100, _⟩ => ⟨S500000, .i32⟩
  | .hbm, ⟨101, _⟩ => ⟨S500000x1, .i32⟩
  | .hbm, ⟨102, _⟩ => ⟨S500000x64, .f32⟩
  | .hbm, ⟨103, _⟩ => ⟨S500000x1, .f32⟩
  | .hbm, ⟨104, _⟩ => ⟨S500000, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S256x64, .f32⟩
  | .local _ .vmem, ⟨33, _⟩ => ⟨S64, .f32⟩
  | .local _ .vmem, ⟨34, _⟩ => ⟨S64x1, .f32⟩
  | .local _ .vmem, ⟨35, _⟩ => ⟨S1, .f32⟩
  | .local _ .vmem, ⟨36, _⟩ => ⟨S5000x1, .f32⟩
  | .local _ .vmem, ⟨37, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_8 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_11 : Ref sig .tc := ⟨.hbm, 85, rfl⟩
abbrev main_v61 : Ref sig .tc := ⟨.hbm, 86, rfl⟩
abbrev main_v62 : Ref sig .tc := ⟨.hbm, 87, rfl⟩
abbrev main_c_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_13 : Ref sig .tc := ⟨.hbm, 94, rfl⟩
abbrev main_v68 : Ref sig .tc := ⟨.hbm, 95, rfl⟩
abbrev main_v69 : Ref sig .tc := ⟨.hbm, 96, rfl⟩
abbrev main_c_14 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg6_0 : Ref sig .tc := ⟨.vmem, 36, rfl⟩
abbrev cc4_stg6_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem5_0 : DmaSem sig := 35
abbrev cc4_sem6_0 : DmaSem sig := 36
abbrev cc4_sem6_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x1 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x64_S5000x64 : S5000x64.ShapeCasts S5000x64
  broadcasts_S5000x1_S5000x64 : S5000x1.Broadcasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S5000x64_S5000x64_S5000x64_S5000x64_S5000x256_d1 : Shape.Concatenates [S5000x64, S5000x64, S5000x64, S5000x64] S5000x256 1
  inb_S256x64_S256x64_0_0 : ∀ a, (![0, 0] : Fin 2 → Nat) a + S256x64.size a ≤ S256x64.size a
  h_S256x64 : 0 < S256x64.numel
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  shapeCasts_S500000x1_S500000 : S500000x1.ShapeCasts S500000
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S5000x128_S128x64_S5000x64_1_0_0_1_n_n_wf : DotDims.WF S5000x128 S128x64 S5000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  gather_S100000x64_S500000x1_S500000x64_1_0_n_n_0_1_164_wf : GatherDims.WF S100000x64 S500000x1 S500000x64 [1] [0] [] [0] [] 1 ![1, 64]
  dot_S5000x256_S256x64_S5000x64_1_0_0_1_n_n_wf : DotDims.WF S5000x256 S256x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S500000x64.size a
  hwx4_0 : ∀ i : grid4.Coords, EltTy.bits .f32 = 32 ∨ (Rect.block (s := S500000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S500000x64.size a
  hwx4_1 : ∀ i : grid4.Coords, EltTy.bits .f32 = 32 ∨ (Rect.block (s := S500000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x64.size a ≤ S256x64.size a
  hwx4_2 : ∀ i : grid4.Coords, EltTy.bits .f32 = 32 ∨ (Rect.block (s := S256x64) S256x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64.size a ≤ S64.size a
  hwx4_3 : ∀ i : grid4.Coords, EltTy.bits .f32 = 32 ∨ (Rect.block (s := S64) S64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x1.size a ≤ S64x1.size a
  hwx4_4 : ∀ i : grid4.Coords, EltTy.bits .f32 = 32 ∨ (Rect.block (s := S64x1) S64x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1.size a ≤ S1.size a
  hwx4_5 : ∀ i : grid4.Coords, EltTy.bits .f32 = 32 ∨ (Rect.block (s := S1) S1.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x1.size a ≤ S500000x1.size a
  hwx4_6 : ∀ i : grid4.Coords, EltTy.bits .f32 = 32 ∨ (Rect.block (s := S500000x1) S5000x1.size (cc4_transform_6 i) (hinb4_6 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v55) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v26) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v67) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v74) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S256x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg9) S64x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg10) S1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v75) S5000x1.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1200000 : Shape := ⟨2, ![2, 1200000]⟩
abbrev S2x500000 : Shape := ⟨2, ![2, 500000]⟩
abbrev S128x64 : Shape := ⟨2, ![128, 64]⟩
abbrev S64 : Shape := ⟨1, ![64]⟩
abbrev S64x64 : Shape := ⟨2, ![64, 64]⟩
abbrev S256x64 : Shape := ⟨2, ![256, 64]⟩
abbrev S64x1 : Shape := ⟨2, ![64, 1]⟩
abbrev S1 : Shape := ⟨1, ![1]⟩
abbrev S1x1200000 : Shape := ⟨2, ![1, 1200000]⟩
abbrev S1200000 : Shape := ⟨1, ![1200000]⟩
abbrev S100000x64 : Shape := ⟨2, ![100000, 64]⟩
abbrev S_ : Shape := ⟨0, ![]⟩
abbrev S100000 : Shape := ⟨1, ![100000]⟩
abbrev S1200000x1 : Shape := ⟨2, ![1200000, 1]⟩
abbrev S1200000x64 : Shape := ⟨2, ![1200000, 64]⟩
abbrev S100000x1 : Shape := ⟨2, ![100000, 1]⟩
abbrev S1x64 : Shape := ⟨2, ![1, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩
abbrev S500000x256 : Shape := ⟨2, ![500000, 256]⟩
abbrev S1x1 : Shape := ⟨2, ![1, 1]⟩

abbrev nBuf : Space → Nat
  | .hbm => 171
  | .vmem => 0
  | .smem => 0
  | _ => 0

abbrev hbmTy0_0 (i : Nat) : BufTy := match i % 128 with
  | 0 => ⟨S100000x128, .f32⟩
  | 1 => ⟨S2x1200000, .i32⟩
  | 2 => ⟨S2x500000, .i32⟩
  | 3 => ⟨S128x64, .f32⟩
  | 4 => ⟨S64, .f32⟩
  | 5 => ⟨S64x64, .f32⟩
  | 6 => ⟨S64, .f32⟩
  | 7 => ⟨S256x64, .f32⟩
  | 8 => ⟨S64, .f32⟩
  | 9 => ⟨S64x1, .f32⟩
  | 10 => ⟨S1, .f32⟩
  | 11 => ⟨S1x1200000, .i32⟩
  | 12 => ⟨S1200000, .i32⟩
  | 13 => ⟨S1x1200000, .i32⟩
  | 14 => ⟨S1200000, .i32⟩
  | 15 => ⟨S100000x64, .f32⟩
  | 16 => ⟨S_, .f32⟩
  | 17 => ⟨S1200000, .f32⟩
  | 18 => ⟨S_, .f32⟩
  | 19 => ⟨S100000, .f32⟩
  | 20 => ⟨S1200000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S1200000, .i32⟩
  | 28 => ⟨S1200000, .i1⟩
  | 29 => ⟨S_, .i32⟩
  | 30 => ⟨S1200000, .i32⟩
  | 31 => ⟨S1200000, .i32⟩
  | 32 => ⟨S1200000, .i32⟩
  | 33 => ⟨S1200000x1, .i32⟩
  | 34 => ⟨S1200000, .f32⟩
  | 35 => ⟨S_, .i32⟩
  | 36 => ⟨S1200000, .i32⟩
  | 37 => ⟨S1200000, .i1⟩
  | 38 => ⟨S_, .i32⟩
  | 39 => ⟨S1200000, .i32⟩
  | 40 => ⟨S1200000, .i32⟩
  | 41 => ⟨S1200000, .i32⟩
  | 42 => ⟨S1200000x1, .i32⟩
  | 43 => ⟨S1200000, .f32⟩
  | 44 => ⟨S1200000, .f32⟩
  | 45 => ⟨S_, .i32⟩
  | 46 => ⟨S1200000, .i32⟩
  | 47 => ⟨S1200000, .i1⟩
  | 48 => ⟨S_, .i32⟩
  | 49 => ⟨S1200000, .i32⟩
  | 50 => ⟨S1200000, .i32⟩
  | 51 => ⟨S1200000, .i32⟩
  | 52 => ⟨S1200000x1, .i32⟩
  | 53 => ⟨S1200000x64, .f32⟩
  | 54 => ⟨S1200000x1, .f32⟩
  | 55 => ⟨S1200000x64, .f32⟩
  | 56 => ⟨S1200000x64, .f32⟩
  | 57 => ⟨S_, .f32⟩
  | 58 => ⟨S100000x64, .f32⟩
  | 59 => ⟨S1200000x1, .i32⟩
  | 60 => ⟨S100000x64, .f32⟩
  | 61 => ⟨S_, .f32⟩
  | 62 => ⟨S100000, .f32⟩
  | 63 => ⟨S100000, .f32⟩
  | 64 => ⟨S100000x1, .f32⟩
  | 65 => ⟨S100000x64, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x64, .f32⟩
  | 75 => ⟨S_, .f32⟩
  | 76 => ⟨S1200000, .f32⟩
  | 77 => ⟨S_, .f32⟩
  | 78 => ⟨S100000, .f32⟩
  | 79 => ⟨S1200000x1, .i32⟩
  | 80 => ⟨S100000, .f32⟩
  | 81 => ⟨S_, .f32⟩
  | 82 => ⟨S100000, .f32⟩
  | 83 => ⟨S100000, .f32⟩
  | 84 => ⟨S100000, .f32⟩
  | 85 => ⟨S_, .i32⟩
  | 86 => ⟨S1200000, .i32⟩
  | 87 => ⟨S1200000, .i1⟩
  | 88 => ⟨S_, .i32⟩
  | 89 => ⟨S1200000, .i32⟩
  | 90 => ⟨S1200000, .i32⟩
  | 91 => ⟨S1200000, .i32⟩
  | 92 => ⟨S1200000x1, .i32⟩
  | 93 => ⟨S1200000, .f32⟩
  | 94 => ⟨S_, .i32⟩
  | 95 => ⟨S1200000, .i32⟩
  | 96 => ⟨S1200000, .i1⟩
  | 97 => ⟨S_, .i32⟩
  | 98 => ⟨S1200000, .i32⟩
  | 99 => ⟨S1200000, .i32⟩
  | 100 => ⟨S1200000, .i32⟩
  | 101 => ⟨S1200000x1, .i32⟩
  | 102 => ⟨S1200000, .f32⟩
  | 103 => ⟨S1200000, .f32⟩
  | 104 => ⟨S_, .i32⟩
  | 105 => ⟨S1200000, .i32⟩
  | 106 => ⟨S1200000, .i1⟩
  | 107 => ⟨S_, .i32⟩
  | 108 => ⟨S1200000, .i32⟩
  | 109 => ⟨S1200000, .i32⟩
  | 110 => ⟨S1200000, .i32⟩
  | 111 => ⟨S1200000x1, .i32⟩
  | 112 => ⟨S1200000x64, .f32⟩
  | 113 => ⟨S1200000x1, .f32⟩
  | 114 => ⟨S1200000x64, .f32⟩
  | 115 => ⟨S1200000x64, .f32⟩
  | 116 => ⟨S_, .f32⟩
  | 117 => ⟨S100000x64, .f32⟩
  | 118 => ⟨S1200000x1, .i32⟩
  | 119 => ⟨S100000x64, .f32⟩
  | 120 => ⟨S_, .f32⟩
  | 121 => ⟨S100000, .f32⟩
  | 122 => ⟨S100000, .f32⟩
  | 123 => ⟨S100000x1, .f32⟩
  | 124 => ⟨S100000x64, .f32⟩
  | 125 => ⟨S100000x64, .f32⟩
  | 126 => ⟨S100000x64, .f32⟩
  | 127 => ⟨S1x64, .f32⟩
  | _ => ⟨S100000x128, .f32⟩

abbrev hbmTy0_1 (i : Nat) : BufTy := match i % 128 with
  | 0 => ⟨S100000x64, .f32⟩
  | 1 => ⟨S100000x64, .f32⟩
  | 2 => ⟨S_, .f32⟩
  | 3 => ⟨S100000x64, .f32⟩
  | 4 => ⟨S100000x64, .f32⟩
  | 5 => ⟨S1x500000, .i32⟩
  | 6 => ⟨S500000, .i32⟩
  | 7 => ⟨S_, .i32⟩
  | 8 => ⟨S500000, .i32⟩
  | 9 => ⟨S500000, .i1⟩
  | 10 => ⟨S_, .i32⟩
  | 11 => ⟨S500000, .i32⟩
  | 12 => ⟨S500000, .i32⟩
  | 13 => ⟨S500000, .i32⟩
  | 14 => ⟨S500000x1, .i32⟩
  | 15 => ⟨S500000x64, .f32⟩
  | 16 => ⟨S1x500000, .i32⟩
  | 17 => ⟨S500000, .i32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S500000x1, .i32⟩
  | 26 => ⟨S500000x64, .f32⟩
  | 27 => ⟨S500000x64, .f32⟩
  | 28 => ⟨S500000x64, .f32⟩
  | 29 => ⟨S500000x64, .f32⟩
  | 30 => ⟨S500000x256, .f32⟩
  | 31 => ⟨S500000x64, .f32⟩
  | 32 => ⟨S1x64, .f32⟩
  | 33 => ⟨S500000x64, .f32⟩
  | 34 => ⟨S500000x64, .f32⟩
  | 35 => ⟨S_, .f32⟩
  | 36 => ⟨S500000x64, .f32⟩
  | 37 => ⟨S500000x64, .f32⟩
  | 38 => ⟨S500000x1, .f32⟩
  | 39 => ⟨S1x1, .f32⟩
  | 40 => ⟨S500000x1, .f32⟩
  | 41 => ⟨S500000x1, .f32⟩
  | 42 => ⟨S500000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call0_cst : Ref sig .tc := ⟨.hbm, 71, rfl⟩
abbrev main_call0_v0 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_18 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_19 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_call1_cst : Ref sig .tc := ⟨.hbm, 130, rfl⟩
abbrev main_call1_v0 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_c_20 : Ref sig .tc := ⟨.hbm, 135, rfl⟩
abbrev main_v98 : Ref sig .tc := ⟨.hbm, 136, rfl⟩
abbrev main_v99 : Ref sig .tc := ⟨.hbm, 137, rfl⟩
abbrev main_c_21 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_c_22 : Ref sig .tc := ⟨.hbm, 146, rfl⟩
abbrev main_v107 : Ref sig .tc := ⟨.hbm, 147, rfl⟩
abbrev main_v108 : Ref sig .tc := ⟨.hbm, 148, rfl⟩
abbrev main_c_23 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_call2_cst : Ref sig .tc := ⟨.hbm, 163, rfl⟩
abbrev main_call2_v0 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  concatenates_S500000x64_S500000x64_S500000x64_S500000x64_S500000x256_d1 : Shape.Concatenates [S500000x64, S500000x64, S500000x64, S500000x64] S500000x256 1
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  dot_S100000x128_S128x64_S100000x64_1_0_0_1_n_n_wf : DotDims.WF S100000x128 S128x64 S100000x64 [1] [0] [0] [1] [] []
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  gather_S100000x64_S500000x1_S500000x64_1_0_n_n_0_1_164_wf : GatherDims.WF S100000x64 S500000x1 S500000x64 [1] [0] [] [0] [] 1 ![1, 64]
  dot_S500000x256_S256x64_S500000x64_1_0_0_1_n_n_wf : DotDims.WF S500000x256 S256x64 S500000x64 [1] [0] [0] [1] [] []
  dot_S500000x64_S64x1_S500000x1_1_0_0_1_n_n_wf : DotDims.WF S500000x64 S64x1 S500000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S500000x256_S256x64_S500000x64_1_0_0_1_n_n : DotDims S500000x256 S256x64 S500000x64 where
  lhsContracting := [1]
  rhsContracting := [0]
  lhsNonContracting := [0]
  rhsNonContracting := [1]
  lhsBatch := []
  rhsBatch := []
  wf := dot_S500000x256_S256x64_S500000x64_1_0_0_1_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf

class Facts : Prop extends Facts₀ where

variable [Facts]
-- ==== Proof.Launch.lean ====
/-
  The run of the idealized kernel program with every buffer's final contents kept.

  The program is ten segments in a row: a stretch of host operations, then a grid of kernel launches, and so on. Running
  them in order from the launch memory leaves every buffer that is not scoped at the contents obtained by folding the
  segments over that memory: a host stretch applies its operations, a grid of launches replaces each of its arrays by
  what its write-backs leave and keeps the rest. The statement below keeps that whole final valuation, so that a later
  step may read off it the result buffer as well as the argument arrays.
-/
import proofs.«180773_j44023414784047_2_alg».proof.Proof.Gen.KernelIdeal.Frame

set_option maxRecDepth 16384

noncomputable section

namespace Cert.Bridge.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates without a fault, and any property of the final memory
    that follows from "each unscoped buffer holds the fold of the ten segments over `m`" holds of it. -/
theorem run_final {Q : PUnit × MemSt nD τ sig (Elt F) → Prop}
    (hQ : ∀ s : MemSt nD τ sig (Elt F),
      (∀ c : Dev nD, ∀ b ∈ Pipeline.ucRefs τ sig, s.mem (((c : Thread nD τ)).1, b) = W10 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := hQ)

end Cert.Bridge.Launch

end
-- ==== Proof.Carry.lean ====
/-
  Which buffers survive which segment.

  The program's run is a fold over ten segments. A stretch of host operations rewrites only the buffers its operations
  write; a grid of kernel launches rewrites only its output arrays, leaves its input arrays as it found them, and does
  not touch any other buffer. So a value computed early (a row of the edge list, the edge coefficient, the degree
  column, a projection) is still there, unchanged, at the later segment that reads it, and every argument array is as
  launched wherever it is read. Each statement below walks one buffer back, boundary by boundary, from where it is read
  to where it was produced.
-/
import proofs.«180773_j44023414784047_2_alg».proof.Proof.Gen.KernelIdeal.Frame

set_option maxRecDepth 16384

noncomputable section

namespace Cert.Bridge.Carry

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- A stretch of host operations leaves a buffer none of its operations writes. -/
macro "host_keeps" : tactic =>
  `(tactic| exact StableHlo.after_of_forall_not_mem _ _ (List.forall_iff_forall_mem.mp (by
      simp only [hostOps0, hostOps1, hostOps3, hostOps4, hostOps5, List.flatten_cons, List.flatten_nil, List.append_nil,
        List.cons_append, List.nil_append, List.Forall, StableHlo.nullary_writes, StableHlo.unary_writes,
        StableHlo.binary_writes, StableHlo.ternary_writes, StableHlo.quaternary_writes, StableHlo.reshape_writes,
        StableHlo.binaryIndexed_writes, Finset.mem_singleton]
      repeat' apply And.intro
      all_goals exact StableHlo.devRef_ne_of_ne (by decide))))

theorem keep_arg0_1 : W1 m ρ c (Proc.devRef .tc main_arg0) = W0 m ρ c (Proc.devRef .tc main_arg0) :=
  calc W1 m ρ c (Proc.devRef .tc main_arg0)
    _ = W0 m ρ c (Proc.devRef .tc main_arg0) := by host_keeps

theorem keep_arg3_1 : W1 m ρ c (Proc.devRef .tc main_arg3) = W0 m ρ c (Proc.devRef .tc main_arg3) :=
  calc W1 m ρ c (Proc.devRef .tc main_arg3)
    _ = W0 m ρ c (Proc.devRef .tc main_arg3) := by host_keeps

theorem keep_arg4_3 : W3 m ρ c (Proc.devRef .tc main_arg4) = W0 m ρ c (Proc.devRef .tc main_arg4) :=
  calc W3 m ρ c (Proc.devRef .tc main_arg4)
    _ = W2 m ρ c (Proc.devRef .tc main_arg4) := by host_keeps
    _ = W1 m ρ c (Proc.devRef .tc main_arg4) := W2_of_ne m ρ c main_arg4 (by decide)
    _ = W0 m ρ c (Proc.devRef .tc main_arg4) := by host_keeps

theorem keep_arg5_4 : W4 m ρ c (Proc.devRef .tc main_arg5) = W0 m ρ c (Proc.devRef .tc main_arg5) :=
  calc W4 m ρ c (Proc.devRef .tc main_arg5)
    _ = W3 m ρ c (Proc.devRef .tc main_arg5) := W4_of_ne m ρ c main_arg5 (by decide)
    _ = W2 m ρ c (Proc.devRef .tc main_arg5) := by host_keeps
    _ = W1 m ρ c (Proc.devRef .tc main_arg5) := W2_of_ne m ρ c main_arg5 (by decide)
    _ = W0 m ρ c (Proc.devRef .tc main_arg5) := by host_keeps

theorem keep_arg6_6 : W6 m ρ c (Proc.devRef .tc main_arg6) = W0 m ρ c (Proc.devRef .tc main_arg6) :=
  calc W6 m ρ c (Proc.devRef .tc main_arg6)
    _ = W5 m ρ c (Proc.devRef .tc main_arg6) := by host_keeps
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := by host_keeps
    _ = W1 m ρ c (Proc.devRef .tc main_arg6) := W2_of_ne m ρ c main_arg6 (by decide)
    _ = W0 m ρ c (Proc.devRef .tc main_arg6) := by host_keeps

theorem keep_arg2_7 : W7 m ρ c (Proc.devRef .tc main_arg2) = W0 m ρ c (Proc.devRef .tc main_arg2) :=
  calc W7 m ρ c (Proc.devRef .tc main_arg2)
    _ = W6 m ρ c (Proc.devRef .tc main_arg2) := W7_of_ne m ρ c main_arg2 (by decide)
    _ = W5 m ρ c (Proc.devRef .tc main_arg2) := by host_keeps
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := by host_keeps
    _ = W1 m ρ c (Proc.devRef .tc main_arg2) := W2_of_ne m ρ c main_arg2 (by decide)
    _ = W0 m ρ c (Proc.devRef .tc main_arg2) := by host_keeps

theorem keep_arg7_8 : W8 m ρ c (Proc.devRef .tc main_arg7) = W0 m ρ c (Proc.devRef .tc main_arg7) :=
  calc W8 m ρ c (Proc.devRef .tc main_arg7)
    _ = W7 m ρ c (Proc.devRef .tc main_arg7) := by host_keeps
    _ = W6 m ρ c (Proc.devRef .tc main_arg7) := W7_of_ne m ρ c main_arg7 (by decide)
    _ = W5 m ρ c (Proc.devRef .tc main_arg7) := by host_keeps
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := by host_keeps
    _ = W1 m ρ c (Proc.devRef .tc main_arg7) := W2_of_ne m ρ c main_arg7 (by decide)
    _ = W0 m ρ c (Proc.devRef .tc main_arg7) := by host_keeps

theorem keep_arg8_8 : W8 m ρ c (Proc.devRef .tc main_arg8) = W0 m ρ c (Proc.devRef .tc main_arg8) :=
  calc W8 m ρ c (Proc.devRef .tc main_arg8)
    _ = W7 m ρ c (Proc.devRef .tc main_arg8) := by host_keeps
    _ = W6 m ρ c (Proc.devRef .tc main_arg8) := W7_of_ne m ρ c main_arg8 (by decide)
    _ = W5 m ρ c (Proc.devRef .tc main_arg8) := by host_keeps
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := by host_keeps
    _ = W1 m ρ c (Proc.devRef .tc main_arg8) := W2_of_ne m ρ c main_arg8 (by decide)
    _ = W0 m ρ c (Proc.devRef .tc main_arg8) := by host_keeps

theorem keep_arg9_8 : W8 m ρ c (Proc.devRef .tc main_arg9) = W0 m ρ c (Proc.devRef .tc main_arg9) :=
  calc W8 m ρ c (Proc.devRef .tc main_arg9)
    _ = W7 m ρ c (Proc.devRef .tc main_arg9) := by host_keeps
    _ = W6 m ρ c (Proc.devRef .tc main_arg9) := W7_of_ne m ρ c main_arg9 (by decide)
    _ = W5 m ρ c (Proc.devRef .tc main_arg9) := by host_keeps
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := by host_keeps
    _ = W1 m ρ c (Proc.devRef .tc main_arg9) := W2_of_ne m ρ c main_arg9 (by decide)
    _ = W0 m ρ c (Proc.devRef .tc main_arg9) := by host_keeps

theorem keep_arg10_8 : W8 m ρ c (Proc.devRef .tc main_arg10) = W0 m ρ c (Proc.devRef .tc main_arg10) :=
  calc W8 m ρ c (Proc.devRef .tc main_arg10)
    _ = W7 m ρ c (Proc.devRef .tc main_arg10) := by host_keeps
    _ = W6 m ρ c (Proc.devRef .tc main_arg10) := W7_of_ne m ρ c main_arg10 (by decide)
    _ = W5 m ρ c (Proc.devRef .tc main_arg10) := by host_keeps
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := by host_keeps
    _ = W1 m ρ c (Proc.devRef .tc main_arg10) := W2_of_ne m ρ c main_arg10 (by decide)
    _ = W0 m ρ c (Proc.devRef .tc main_arg10) := by host_keeps

theorem keep_v1_2 : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem keep_v3_2 : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem keep_v25_2 : W2 m ρ c (Proc.devRef .tc main_v25) = W1 m ρ c (Proc.devRef .tc main_v25) :=
  calc W2 m ρ c (Proc.devRef .tc main_v25)
    _ = W1 m ρ c (Proc.devRef .tc main_v25) := W2_of_ne m ρ c main_v25 (by decide)

theorem keep_v1_5 : W5 m ρ c (Proc.devRef .tc main_v1) = W1 m ρ c (Proc.devRef .tc main_v1) :=
  calc W5 m ρ c (Proc.devRef .tc main_v1)
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := by host_keeps
    _ = W1 m ρ c (Proc.devRef .tc main_v1) := W2_of_ne m ρ c main_v1 (by decide)

theorem keep_v3_5 : W5 m ρ c (Proc.devRef .tc main_v3) = W1 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := by host_keeps
    _ = W1 m ρ c (Proc.devRef .tc main_v3) := W2_of_ne m ρ c main_v3 (by decide)

theorem keep_v25_5 : W5 m ρ c (Proc.devRef .tc main_v25) = W1 m ρ c (Proc.devRef .tc main_v25) :=
  calc W5 m ρ c (Proc.devRef .tc main_v25)
    _ = W4 m ρ c (Proc.devRef .tc main_v25) := W5_of_ne m ρ c main_v25 (by decide)
    _ = W3 m ρ c (Proc.devRef .tc main_v25) := W4_of_ne m ρ c main_v25 (by decide)
    _ = W2 m ρ c (Proc.devRef .tc main_v25) := by host_keeps
    _ = W1 m ρ c (Proc.devRef .tc main_v25) := W2_of_ne m ρ c main_v25 (by decide)

theorem keep_v26_3 : W3 m ρ c (Proc.devRef .tc main_v26) = W1 m ρ c (Proc.devRef .tc main_v26) :=
  calc W3 m ρ c (Proc.devRef .tc main_v26)
    _ = W2 m ρ c (Proc.devRef .tc main_v26) := by host_keeps
    _ = W1 m ρ c (Proc.devRef .tc main_v26) := W2_of_ne m ρ c main_v26 (by decide)

theorem keep_v26_6 : W6 m ρ c (Proc.devRef .tc main_v26) = W1 m ρ c (Proc.devRef .tc main_v26) :=
  calc W6 m ρ c (Proc.devRef .tc main_v26)
    _ = W5 m ρ c (Proc.devRef .tc main_v26) := by host_keeps
    _ = W4 m ρ c (Proc.devRef .tc main_v26) := W5_of_ne m ρ c main_v26 (by decide)
    _ = W3 m ρ c (Proc.devRef .tc main_v26) := (W4_arr m ρ c 2).trans (((dat1 (V3 m ρ) c).arrAt_in 2 rfl _).trans (A_eq1 (V3 m ρ) c 2))
    _ = W2 m ρ c (Proc.devRef .tc main_v26) := by host_keeps
    _ = W1 m ρ c (Proc.devRef .tc main_v26) := W2_of_ne m ρ c main_v26 (by decide)

theorem keep_v27_3 : W3 m ρ c (Proc.devRef .tc main_v27) = W2 m ρ c (Proc.devRef .tc main_v27) :=
  calc W3 m ρ c (Proc.devRef .tc main_v27)
    _ = W2 m ρ c (Proc.devRef .tc main_v27) := by host_keeps

theorem keep_v42_6 : W6 m ρ c (Proc.devRef .tc main_v42) = W5 m ρ c (Proc.devRef .tc main_v42) :=
  calc W6 m ρ c (Proc.devRef .tc main_v42)
    _ = W5 m ρ c (Proc.devRef .tc main_v42) := by host_keeps

end Cert.Bridge.Carry

end
-- ==== Proof.HostStages.lean ====
/-
  The host operations between the kernel launches, read against the reference.

  Both programs build the same quantities from the edge list with the same operations: the source and target rows of
  the edge list, the in-degree plus one (a scatter-add of ones over the targets), its inverse square root, the edge
  coefficient (the product of that root gathered at the source and at the target), and, per layer, the aggregate (the
  projected rows gathered at the sources, scaled by the coefficient, scatter-added over the targets). Reading a stretch
  of these operations off the buffers it starts from gives the very operations the reference applies, one for one, so
  once the operands agree the results agree, with no need to open a gather or a scatter. The reference recomputes the
  degree and the coefficient for its second layer from the same edge list; those copies are the first layer's.
-/
import proofs.«180773_j44023414784047_2_alg».proof.Proof.Gen.KernelIdeal.Launch
import proofs.«180773_j44023414784047_2_alg».proof.Proof.Gen.ReferenceIdeal.Read
import Idealize.ShloMosaic.Lib.StableHlo.Run

set_option maxRecDepth 16384

noncomputable section

namespace Cert.Bridge.Host

open Cert.KernelIdeal Cert.KernelIdeal.Gen Cert.ReferenceIdeal.Read
open Idealize.ShloMosaic Idealize.ShloMosaic.TcCoe Idealize.ShloMosaic.StableHlo

variable (W : Valuation τ sig (Elt Ideal))
variable (x0 : (⟨S100000x128, .f32⟩ : BufTy).Contents (Elt Ideal)) (x1 : (⟨S2x1200000, .i32⟩ : BufTy).Contents (Elt Ideal))
  (x2 : (⟨S2x500000, .i32⟩ : BufTy).Contents (Elt Ideal)) (x3 : (⟨S128x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S256x64, .f32⟩ : BufTy).Contents (Elt Ideal))
  (x8 : (⟨S64, .f32⟩ : BufTy).Contents (Elt Ideal)) (x9 : (⟨S64x1, .f32⟩ : BufTy).Contents (Elt Ideal))
  (x10 : (⟨S1, .f32⟩ : BufTy).Contents (Elt Ideal))

/-! ## The second layer's degree and coefficient are the first layer's -/

/-- The reference's second in-degree-plus-one is its first: the same scatter-add of ones over the same targets. -/
theorem deg_again : val_main_v56 (F := Ideal) x1 = val_main_v10 (F := Ideal) x1 := rfl

/-- Likewise its second edge coefficient. -/
theorem coef_again : val_main_v72 (F := Ideal) x1 = val_main_v26 (F := Ideal) x1 := rfl

/-! ## Before the first launch: rows of the edge list, degree, coefficient, degree as a column -/

/-- The source row of the edge list. -/
theorem src_eq (h1 : W (Proc.devRef .tc main_arg1) = x1) :
    after hostOps0 W (Proc.devRef .tc main_v1) = val_main_v1 (F := Ideal) x1 := by
  dsimp only [hostOps0]; after_results_simp; rw [h1]; rfl

/-- The target row of the edge list. -/
theorem dst_eq (h1 : W (Proc.devRef .tc main_arg1) = x1) :
    after hostOps0 W (Proc.devRef .tc main_v3) = val_main_v3 (F := Ideal) x1 := by
  dsimp only [hostOps0]; after_results_simp; rw [h1]; rfl

/-- The in-degree plus one. -/
theorem deg_eq (h1 : W (Proc.devRef .tc main_arg1) = x1) :
    after hostOps0 W (Proc.devRef .tc main_v9) = val_main_v10 (F := Ideal) x1 := by
  dsimp only [hostOps0]; after_results_simp; rw [h1]; rfl

/-- The edge coefficient. -/
theorem coef_eq (h1 : W (Proc.devRef .tc main_arg1) = x1) :
    after hostOps0 W (Proc.devRef .tc main_v25) = val_main_v26 (F := Ideal) x1 := by
  dsimp only [hostOps0]; after_results_simp; rw [h1]; rfl

/-- The degree laid out as a column: the same numbers, one per row. -/
theorem degcol_eq (h1 : W (Proc.devRef .tc main_arg1) = x1) :
    after hostOps0 W (Proc.devRef .tc main_v26)
      = shapeCast S100000x1 (val_main_v10 (F := Ideal) x1) shapeCasts_S100000_S100000x1 := by
  dsimp only [hostOps0]; after_results_simp; rw [h1]; rfl

/-! ## Between the launches: the aggregates, and the endpoint rows of the pairs -/

/-- The first layer's aggregate, from the first projection. -/
theorem agg1_eq (h1 : W (Proc.devRef .tc main_v1) = val_main_v1 (F := Ideal) x1)
    (h3 : W (Proc.devRef .tc main_v3) = val_main_v3 (F := Ideal) x1)
    (h25 : W (Proc.devRef .tc main_v25) = val_main_v26 (F := Ideal) x1)
    (h27 : W (Proc.devRef .tc main_v27) = val_main_v4 (F := Ideal) x0 x3) :
    after hostOps1 W (Proc.devRef .tc main_v40) = val_main_v39 (F := Ideal) x0 x1 x3 := by
  dsimp only [hostOps1]; after_results_simp; rw [h1, h3, h25, h27]; rfl

/-- The second layer's aggregate, from the second projection. -/
theorem agg2_eq (h1 : W (Proc.devRef .tc main_v1) = val_main_v1 (F := Ideal) x1)
    (h3 : W (Proc.devRef .tc main_v3) = val_main_v3 (F := Ideal) x1)
    (h25 : W (Proc.devRef .tc main_v25) = val_main_v72 (F := Ideal) x1)
    (h42 : W (Proc.devRef .tc main_v42) = val_main_v50 (F := Ideal) x0 x1 x3 x4 x5) :
    after hostOps3 W (Proc.devRef .tc main_v55) = val_main_v85 (F := Ideal) x0 x1 x3 x4 x5 := by
  dsimp only [hostOps3]; after_results_simp; rw [h1, h3, h25, h42]; rfl

/-- The node embeddings gathered at the pairs' first endpoints. -/
theorem left_eq (h2 : W (Proc.devRef .tc main_arg2) = x2)
    (h56 : W (Proc.devRef .tc main_v56) = val_main_v95 (F := Ideal) x0 x1 x3 x4 x5 x6) :
    after hostOps4 W (Proc.devRef .tc main_v67) = val_main_v104 (F := Ideal) x0 x1 x2 x3 x4 x5 x6 := by
  dsimp only [hostOps4]; after_results_simp; rw [h2, h56]; rfl

/-- The node embeddings gathered at the pairs' second endpoints. -/
theorem right_eq (h2 : W (Proc.devRef .tc main_arg2) = x2)
    (h56 : W (Proc.devRef .tc main_v56) = val_main_v95 (F := Ideal) x0 x1 x3 x4 x5 x6) :
    after hostOps4 W (Proc.devRef .tc main_v74) = val_main_v113 (F := Ideal) x0 x1 x2 x3 x4 x5 x6 := by
  dsimp only [hostOps4]; after_results_simp; rw [h2, h56]; rfl

/-! ## After the last launch: the column of scores laid out flat -/

/-- The result: the head's column, flattened. -/
theorem flat_eq (h75 : W (Proc.devRef .tc main_v75) = val_main_v126 (F := Ideal) x0 x1 x2 x3 x4 x5 x6 x7 x8 x9 x10) :
    after hostOps5 W (Proc.devRef .tc main_v76) = val_main_v127 (F := Ideal) x0 x1 x2 x3 x4 x5 x6 x7 x8 x9 x10 := by
  dsimp only [hostOps5]; after_results_simp; rw [h75]; rfl

end Cert.Bridge.Host

end
-- ==== Proof.LibPlainDot.lean ====
import Idealize.ShloMosaic.PureOps.Ideal.Laws
import Idealize.ShloMosaic.Lib.ValueIdx

/-!
# A plain matrix product read at an entry

For the dimension numbers of an M×K by K×N product with no batch axis, entry (p, q) of the product into a
zero accumulator is the sum over k of left (p, k) times right (k, q), on the extended reals.
-/

noncomputable section

namespace Cert.PlainDot

open Idealize.ShloMosaic Idealize.ShloMosaic.ValueIdx
open scoped BigOperators

theorem contr_rank (M K N : Nat) : (DotDims.plain M K N).contr.rank = 1 := rfl

theorem contr_size (M K N : Nat) :
    (DotDims.plain M K N).contr.size ⟨0, by rw [contr_rank]; exact Nat.one_pos⟩ = K := rfl

/-- The left operand's index at output (p, q) and contraction coordinate k is (p, k). -/
theorem lhsIdx_eq (M K N : Nat) (p : Fin M) (q : Fin N) (k : Fin K) :
    (DotDims.plain M K N).lhsIdx (ix2 p q)
        ((contrEquiv1 (DotDims.plain M K N) K (contr_rank M K N) (contr_size M K N)).symm k) = ix2 p k := by
  have hk := contrEquiv1_symm_val (DotDims.plain M K N) K (contr_rank M K N) (contr_size M K N) k
  funext a
  refine Fin.ext ?_
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := (1 : Fin 2)) rfl _ _).trans hk

/-- The right operand's index at output (p, q) and contraction coordinate k is (k, q). -/
theorem rhsIdx_eq (M K N : Nat) (p : Fin M) (q : Fin N) (k : Fin K) :
    (DotDims.plain M K N).rhsIdx (ix2 p q)
        ((contrEquiv1 (DotDims.plain M K N) K (contr_rank M K N) (contr_size M K N)).symm k) = ix2 k q := by
  have hk := contrEquiv1_symm_val (DotDims.plain M K N) K (contr_rank M K N) (contr_size M K N) k
  funext a
  refine Fin.ext ?_
  match a with
  | ⟨0, _⟩ =>
    exact ((DotDims.plain M K N).rhsIdx_val_of_single (cr := (0 : Fin 2)) rfl _ _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- A plain product into the zero accumulator, at entry (p, q). -/
theorem matmul_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    matmul (DotDims.plain M K N) prec l r (constant (F := Ideal) ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply,
    ← Equiv.sum_comp (contrEquiv1 (DotDims.plain M K N) K (contr_rank M K N) (contr_size M K N)).symm]
  refine Finset.sum_congr rfl fun k _ => ?_
  rw [lhsIdx_eq, rhsIdx_eq]

end Cert.PlainDot

end
-- ==== Proof.LibWholeBlock.lean ====
/-
  Whole-block loads and stores of a whole buffer.
-/
import Idealize.ShloMosaic.Lib.Pipeline.FrameBody
import Idealize.ShloMosaic.Lib.Pipeline.Frame
import Idealize.ShloMosaic.Lib.Pipeline.Value

noncomputable section

namespace Idealize.ShloMosaic.WholeBlock

open Idealize.ShloMosaic

variable {Val : EltTy → Type} {S : Shape} {e : EltTy} {sig : RefSig} {κ : Kind} {sp : Space}

/-- A list of stores whose LAST one goes through the whole-shape rectangle at zero offsets leaves, read back through
    the view, that store's payload: whatever the buffer held and whatever the earlier stores wrote. -/
theorem read_writes_unit_zero [∀ e, Nonempty (Val e)] (v : View sig κ sp S e) (f : v.ty.Contents Val)
    {off : Fin S.rank → Nat} (h : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- A load through the whole-shape rectangle at zero offsets of a whole buffer holding `X` reads `X`. -/
theorem readAt_unit_zero_unread (m : Memref sig κ sp S e) (hm : m.IsWhole)
    {off : Fin S.rank → Nat} (h : off = fun _ => 0) (inb : ∀ a, off a + S.size a ≤ S.size a) (X : S.Idx → Val e) :
    m.view.readAt Val (Rect.unit off S.size inb).toLoadRect (hm.unread X) = X := by
  show View.ld (m.view.read Val (hm.unread X)) (Rect.unit off S.size inb) = X
  rw [hm.read_unread, View.ld_unit_zero h inb]

/-- The two zero offsets of a rank-2 rectangle, as the constant function. -/
theorem zero2 : (![0, 0] : Fin 2 → Nat) = fun _ => 0 := by
  funext a; match a with | ⟨0, _⟩ => rfl | ⟨1, _⟩ => rfl

end Idealize.ShloMosaic.WholeBlock

end
-- ==== Proof.RegionMatmul.lean ====
import proofs.«180773_j44023414784047_2_alg».proof.Proof.Gen.KernelIdeal.Frame
import proofs.«180773_j44023414784047_2_alg».proof.Proof.Gen.ReferenceIdeal.Read
import proofs.«180773_j44023414784047_2_alg».proof.Proof.LibPlainDot
import proofs.«180773_j44023414784047_2_alg».proof.Proof.LibWholeBlock
import Idealize.ShloMosaic.Lib.Pipeline.Value
import Idealize.ShloMosaic.Lib.ValueIdx
import Idealize.ShloMosaic.PureOps.Ideal.Laws

/-!
# The two dense projections

Each of the two projection stages multiplies a tall matrix (100000 rows) by a small square-ish weight
matrix, twenty row panels of 5000 rows at a time. A panel of the product depends only on the same panel
of the left factor and on the whole right factor, so the panels, laid one under another, are the full
product: entry (r, q) is the sum over k of left (r, k) times right (k, q). On the extended reals the
narrowing of the factors before the product is the identity and the product into a zero accumulator is
this finite sum, which is also what the plain contraction of the two matrices is.
-/

set_option maxRecDepth 16384

noncomputable section

namespace Cert.Bridge.Matmul

open Cert.KernelIdeal Cert.KernelIdeal.Gen
open Idealize.ShloMosaic Idealize.ShloMosaic.TcCoe Idealize.ShloMosaic.ValueIdx Idealize.SL.Sem
open Idealize.ShloMosaic.Pipeline (Dat)
open Idealize.ShloMosaic.WholeBlock (zero2)
open scoped BigOperators

/-! ## The products, entry by entry -/

/-- The 100000×128 by 128×64 product: entry (r, q) is the sum over k of x (r, k) · w (k, q). -/
def prod128 (x : S100000x128.Idx → Elt Ideal .f32) (w : S128x64.Idx → Elt Ideal .f32) :
    S100000x64.Idx → Elt Ideal .f32 :=
  fun i => ∑ k : Fin 128, x (ix2 (⟨(i 0).val, (i 0).isLt⟩ : Fin 100000) k) * w (ix2 k (⟨(i 1).val, (i 1).isLt⟩ : Fin 64))

/-- The 100000×64 by 64×64 product: entry (r, q) is the sum over k of x (r, k) · w (k, q). -/
def prod64 (x : S100000x64.Idx → Elt Ideal .f32) (w : S64x64.Idx → Elt Ideal .f32) :
    S100000x64.Idx → Elt Ideal .f32 :=
  fun i => ∑ k : Fin 64, x (ix2 (⟨(i 0).val, (i 0).isLt⟩ : Fin 100000) k) * w (ix2 k (⟨(i 1).val, (i 1).isLt⟩ : Fin 64))

/-! ## One panel's product, entry by entry -/

/-- A 5000×128 panel times the 128×64 weights, at an entry: narrowing is the identity and the product
    into zero is the sum over the shared axis. -/
theorem panel128_apply (b : Vec Ideal S5000x128 .f32) (w : Vec Ideal S128x64 .f32) (i : S5000x64.Idx) :
    k0_pay1 (F := Ideal) b w i
      = ∑ k : Fin 128, b (ix2 (⟨(i 0).val, (i 0).isLt⟩ : Fin 5000) k) * w (ix2 k (⟨(i 1).val, (i 1).isLt⟩ : Fin 64)) := by
  obtain ⟨p, q, rfl⟩ : ∃ (p : Fin 5000) (q : Fin 64), i = ix2 p q := ⟨i 0, i 1, eq_ix2 i⟩
  unfold k0_pay1
  exact Cert.PlainDot.matmul_zero_apply 5000 128 64 none b w p q

/-- A 5000×64 panel times the 64×64 weights, at an entry. -/
theorem panel64_apply (b : Vec Ideal S5000x64 .f32) (w : Vec Ideal S64x64 .f32) (i : S5000x64.Idx) :
    k2_pay1 (F := Ideal) b w i
      = ∑ k : Fin 64, b (ix2 (⟨(i 0).val, (i 0).isLt⟩ : Fin 5000) k) * w (ix2 k (⟨(i 1).val, (i 1).isLt⟩ : Fin 64)) := by
  obtain ⟨p, q, rfl⟩ : ∃ (p : Fin 5000) (q : Fin 64), i = ix2 p q := ⟨i 0, i 1, eq_ix2 i⟩
  unfold k2_pay1
  rw [shapeCast_self]
  exact Cert.PlainDot.matmul_zero_apply 5000 64 64 none b w p q

/-! ## The products are the plain contractions -/

/-- The first product is the contraction of the two argument matrices over the shared axis. -/
theorem prod128_eq_ref (x0 : S100000x128.Idx → Elt Ideal .f32) (x3 : S128x64.Idx → Elt Ideal .f32) :
    prod128 x0 x3 = Cert.ReferenceIdeal.Read.val_main_v4 (F := Ideal) x0 x3 := by
  funext i
  rw [Cert.ReferenceIdeal.Read.val_main_v4_apply]
  unfold prod128
  refine Finset.sum_congr rfl fun k _ => ?_
  have el : ix2 (⟨(i 0).val, (i 0).isLt⟩ : Fin 100000) k = Cert.ReferenceIdeal.Read.lidx_main_v4 i k :=
    funext fun a => Fin.ext (by match a with | ⟨0, _⟩ => rfl | ⟨1, _⟩ => rfl)
  have er : ix2 k (⟨(i 1).val, (i 1).isLt⟩ : Fin 64) = Cert.ReferenceIdeal.Read.ridx_main_v4 i k :=
    funext fun a => Fin.ext (by match a with | ⟨0, _⟩ => rfl | ⟨1, _⟩ => rfl)
  exact congrArg₂ (· * ·) (congrArg x0 el) (congrArg x3 er)

/-- The second product, of any left factor, is its contraction with the weights; in particular of the
    activations the first layer leaves. -/
theorem prod64_eq_ref (x0 : S100000x128.Idx → Elt Ideal .f32) (x1 : S2x1200000.Idx → Elt Ideal .i32)
    (x3 : S128x64.Idx → Elt Ideal .f32) (x4 : S64.Idx → Elt Ideal .f32) (x5 : S64x64.Idx → Elt Ideal .f32) :
    prod64 (Cert.ReferenceIdeal.Read.val_main_v49 (F := Ideal) x0 x1 x3 x4) x5
      = Cert.ReferenceIdeal.Read.val_main_v50 (F := Ideal) x0 x1 x3 x4 x5 := by
  funext i
  rw [Cert.ReferenceIdeal.Read.val_main_v50_apply]
  generalize Cert.ReferenceIdeal.Read.val_main_v49 (F := Ideal) x0 x1 x3 x4 = y
  unfold prod64
  refine Finset.sum_congr rfl fun k _ => ?_
  have el : ix2 (⟨(i 0).val, (i 0).isLt⟩ : Fin 100000) k = Cert.ReferenceIdeal.Read.lidx_main_v50 i k :=
    funext fun a => Fin.ext (by match a with | ⟨0, _⟩ => rfl | ⟨1, _⟩ => rfl)
  have er : ix2 k (⟨(i 1).val, (i 1).isLt⟩ : Fin 64) = Cert.ReferenceIdeal.Read.ridx_main_v50 i k :=
    funext fun a => Fin.ext (by match a with | ⟨0, _⟩ => rfl | ⟨1, _⟩ => rfl)
  exact congrArg₂ (· * ·) (congrArg y el) (congrArg x5 er)

/-! ## Region by region: the panels laid one under another are the product -/

section Panels

variable (V : (c : Dev nD) → (b : Ref sig .tc) → Buf (Elt Ideal) ((c : Thread nD τ).loc b))

/-! ### The first projection -/

/-- Where the panels sit: at step t the left factor's and the result's panels are the t-th ones (rows
    5000·t onward, all columns), and the weights are taken whole. -/
theorem panel_index0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What step t writes back is the t-th panel of the product of the two arrays as the stage finds them. -/
theorem written0_eq (c : Dev nD) (t : Fin cfg0.N) :
    (dat0 V c).flushed 2 t
      = ((cfg0.win 2).blk t).view.read (Elt Ideal) (prod128 (V c main_arg0) (V c main_arg3)) := by
  show (cfg0.win 2).cut (grid0.coords t) ((dat0 V c).after 2 t) = _
  rw [after0_2]
  unfold out0_2
  rw [View.canon_unit_zero zero2]
  simp only [View.ld_unit_zero (S := S5000x128) zero2, View.ld_unit_zero (S := S128x64) zero2]
  obtain ⟨e0, e1, e2, e3, e4, e5⟩ := panel_index0 t
  funext j
  have hj0 : (j 0).val < 5000 := (j 0).isLt
  have hj1 : (j 1).val < 64 := (j 1).isLt
  refine (panel128_apply _ _ _).trans ?_
  show _ = prod128 (V c main_arg0) (V c main_arg3) (((cfg0.win 2).blk t).view.emb j)
  unfold prod128
  refine Finset.sum_congr rfl fun k _ => ?_
  have hk : k.val < 128 := k.isLt
  have hl : iblk0 V c 0 t (ix2 (⟨(j 0).val, hj0⟩ : Fin 5000) k)
      = V c main_arg0 (ix2 (⟨((((cfg0.win 2).blk t).view.emb j) 0).val, ((((cfg0.win 2).blk t).view.emb j) 0).isLt⟩ : Fin 100000) k) := by
    show V c main_arg0 (((cfg0.win 0).blk t).view.emb (ix2 (⟨(j 0).val, hj0⟩ : Fin 5000) k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hr : iblk0 V c 1 t (ix2 k (⟨(j 1).val, hj1⟩ : Fin 64))
      = V c main_arg3 (ix2 k (⟨((((cfg0.win 2).blk t).view.emb j) 1).val, ((((cfg0.win 2).blk t).view.emb j) 1).isLt⟩ : Fin 64)) := by
    show V c main_arg3 (((cfg0.win 1).blk t).view.emb (ix2 k (⟨(j 1).val, hj1⟩ : Fin 64))) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  exact congrArg₂ (· * ·) hl hr

/-- An entry of the result array lies in step t's panel iff each coordinate is in the panel's range. -/
theorem mem_panel0 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v27).slice (win0_2.rect t)).set ↔ _
  rw [View.set_slice_whole, Rect.mem_set_unit]
  exact Iff.rfl

/-- Every entry of the result is in some step's panel: row r is in panel r / 5000. -/
theorem panels_cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, lt_of_lt_of_eq (show (i 0).val / 5000 < 20 by omega) N_0.symm⟩, rfl⟩
  obtain ⟨e0, e1, e2, e3, e4, e5⟩ := panel_index0 t
  refine ⟨t, flush0_2 t, ?_⟩
  rw [mem_panel0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the twenty steps the result array is the product of the two arrays the stage was entered with. -/
theorem final0 (c : Dev nD) : (dat0 V c).arrAt 2 cfg0.N = prod128 (V c main_arg0) (V c main_arg3) :=
  (dat0 V c).arrAt_eq_of_cover 2 (prod128 (V c main_arg0) (V c main_arg3)) (fun t _ => written0_eq V c t) panels_cover0

/-! ### The second projection -/

/-- The same arrangement as in the first projection: step t takes the t-th row panel of the left factor
    and of the result, and the whole of the 64×64 weights. -/
theorem panel_index2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Step t writes back the t-th panel of the product of the activations and the weights as the stage finds them. -/
theorem written2_eq (c : Dev nD) (t : Fin cfg2.N) :
    (dat2 V c).flushed 2 t
      = ((cfg2.win 2).blk t).view.read (Elt Ideal) (prod64 (V c main_v41) (V c main_arg5)) := by
  show (cfg2.win 2).cut (grid2.coords t) ((dat2 V c).after 2 t) = _
  rw [after2_2]
  unfold out2_2
  rw [View.canon_unit_zero zero2]
  simp only [View.ld_unit_zero (S := S5000x64) zero2, View.ld_unit_zero (S := S64x64) zero2]
  obtain ⟨e0, e1, e2, e3, e4, e5⟩ := panel_index2 t
  funext j
  have hj0 : (j 0).val < 5000 := (j 0).isLt
  have hj1 : (j 1).val < 64 := (j 1).isLt
  refine (panel64_apply _ _ _).trans ?_
  show _ = prod64 (V c main_v41) (V c main_arg5) (((cfg2.win 2).blk t).view.emb j)
  unfold prod64
  refine Finset.sum_congr rfl fun k _ => ?_
  have hk : k.val < 64 := k.isLt
  have hl : iblk2 V c 0 t (ix2 (⟨(j 0).val, hj0⟩ : Fin 5000) k)
      = V c main_v41 (ix2 (⟨((((cfg2.win 2).blk t).view.emb j) 0).val, ((((cfg2.win 2).blk t).view.emb j) 0).isLt⟩ : Fin 100000) k) := by
    show V c main_v41 (((cfg2.win 0).blk t).view.emb (ix2 (⟨(j 0).val, hj0⟩ : Fin 5000) k)) = _
    refine congrArg (V c main_v41) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have hr : iblk2 V c 1 t (ix2 k (⟨(j 1).val, hj1⟩ : Fin 64))
      = V c main_arg5 (ix2 k (⟨((((cfg2.win 2).blk t).view.emb j) 1).val, ((((cfg2.win 2).blk t).view.emb j) 1).isLt⟩ : Fin 64)) := by
    show V c main_arg5 (((cfg2.win 1).blk t).view.emb (ix2 k (⟨(j 1).val, hj1⟩ : Fin 64))) = _
    refine congrArg (V c main_arg5) (funext fun a => Fin.ext ?_)
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega
  exact congrArg₂ (· * ·) hl hr

/-- Membership of an entry in step t's panel of the second result, coordinate by coordinate. -/
theorem mem_panel2 (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v42).slice (win2_2.rect t)).set ↔ _
  rw [View.set_slice_whole, Rect.mem_set_unit]
  exact Iff.rfl

/-- The twenty panels exhaust the second result too: row r is in panel r / 5000. -/
theorem panels_cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, lt_of_lt_of_eq (show (i 0).val / 5000 < 20 by omega) N_2.symm⟩, rfl⟩
  obtain ⟨e0, e1, e2, e3, e4, e5⟩ := panel_index2 t
  refine ⟨t, flush2_2 t, ?_⟩
  rw [mem_panel2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the twenty steps the second result is the product of the activations and the weights the stage was entered with. -/
theorem final2 (c : Dev nD) : (dat2 V c).arrAt 2 cfg2.N = prod64 (V c main_v41) (V c main_arg5) :=
  (dat2 V c).arrAt_eq_of_cover 2 (prod64 (V c main_v41) (V c main_arg5)) (fun t _ => written2_eq V c t) panels_cover2

end Panels

end Cert.Bridge.Matmul

end
-- ==== Proof.RegionCombine.lean ====
import proofs.«180773_j44023414784047_2_alg».proof.Proof.Gen.KernelIdeal.Frame
import proofs.«180773_j44023414784047_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal

/-! # The two combine layers

Each graph-convolution layer ends by combining, row by row, the aggregated neighbour sum with the node's own
projected feature scaled by the reciprocal of its degree, adding the bias and clamping at zero:
entry (r, k) is max((agg(r,k) + h(r,k) · (1 / deg(r))) + b(k), 0).
Here that function is written once over whole arrays, the kernel's two combine regions are shown to leave it in
their output arrays, and the reference's chain of elementwise operations is shown to be it. -/

set_option maxRecDepth 16384

noncomputable section

open Idealize.ShloMosaic Idealize.ShloMosaic.TcCoe Idealize.SL.Sem
open Idealize.ShloMosaic.Pipeline (Dat)
open Idealize.ShloMosaic.ValueIdx

namespace Cert.Bridge.Combine

open Cert.KernelIdeal Cert.KernelIdeal.Gen

/-! ## The combined layer as one function of whole arrays -/

/-- The entry of the degree column on the row of a matrix index. -/
abbrev degAt (i : S100000x64.Idx) : S100000x1.Idx := fun a => match a with
  | ⟨0, _⟩ => ⟨(i 0).val, (i 0).isLt⟩
  | ⟨1, _⟩ => ⟨0, Nat.one_pos⟩

/-- The row of a matrix index, as an index of a vector over the rows. -/
abbrev rowAt (i : S100000x64.Idx) : S100000.Idx := fun a => match a with
  | ⟨0, _⟩ => ⟨(i 0).val, (i 0).isLt⟩

/-- The column of a matrix index, as an index of the bias vector. -/
abbrev colAt (i : S100000x64.Idx) : S64.Idx := fun a => match a with
  | ⟨0, _⟩ => ⟨(i 1).val, (i 1).isLt⟩

/-- max((agg + h · (1 / deg)) + b, 0), entry by entry: the degree read on the entry's row, the bias on its column. -/
def comb (agg h : S100000x64.Idx → Elt Ideal .f32) (d : S100000x1.Idx → Elt Ideal .f32) (b : S64.Idx → Elt Ideal .f32) :
    S100000x64.Idx → Elt Ideal .f32 := fun i =>
  FloatOps.maximumf (F := Ideal) (φ := .f32)
    (FloatOps.addf
      (FloatOps.addf (agg i) (FloatOps.mulf (h i) (FloatOps.divf (Scalar.ofBits .f32 0x3F800000#32) (d (degAt i)))))
      (b (colAt i)))
    (Scalar.ofBits .f32 0x00000000#32)

/-! ## One column spread over many -/

/-- An [a, 1] array broadcast to [a, b] reads, at (p, c), the one entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The block a grid point computes, entry by entry -/

/-- Entry (p, q) of a computed block, from the loaded blocks: the degree is read on row p, the bias at q. -/
theorem pay1_apply (v0 : Vec Ideal S5000x1 .f32) (v4 v6 : Vec Ideal S5000x64 .f32) (v11 : Vec Ideal S64 .f32)
    (p : Fin 5000) (q : Fin 64) :
    k1_pay1 v0 v4 v6 v11 (ix2 p q)
      = FloatOps.maximumf (F := Ideal) (φ := .f32)
          (FloatOps.addf
            (FloatOps.addf (v4 (ix2 p q)) (FloatOps.mulf (v6 (ix2 p q)) (FloatOps.divf (Scalar.ofBits .f32 0x3F800000#32) (v0 (ix2 p (0 : Fin 1))))))
            (v11 (ix1 q)))
          (Scalar.ofBits .f32 0x00000000#32) := by
  unfold k1_pay1
  simp only [shapeCast_self]
  show FloatOps.maximumf (F := Ideal) (φ := .f32)
      (FloatOps.addf
        (FloatOps.addf (v4 (ix2 p q)) (FloatOps.mulf (v6 (ix2 p q))
          (broadcastTo S5000x64 (divf (broadcast S5000x1 (Scalar.ofBits .f32 0x3F800000#32)) v0) broadcasts_S5000x1_S5000x64 (ix2 p q))))
        (broadcastTo S5000x64 (shapeCast S1x64 v11 shapeCasts_S64_S1x64) broadcasts_S1x64_S5000x64 (ix2 p q)))
      (Scalar.ofBits .f32 0x00000000#32) = _
  rw [broadcastTo_a1_ab_apply, broadcastTo_1b_ab_apply, shapeCast_a_1a_apply]
  rfl

/-- The second layer's block is the same function of its loaded blocks. -/
theorem pay3_eq (v0 : Vec Ideal S5000x1 .f32) (v4 v6 : Vec Ideal S5000x64 .f32) (v11 : Vec Ideal S64 .f32) :
    k3_pay1 v0 v4 v6 v11 = k1_pay1 v0 v4 v6 v11 := rfl

/-- A computed block's entry is the whole-array function at an index i, as soon as each loaded block's entry is
    the corresponding array's at i (its row for the degree, its column for the bias). -/
theorem pay1_at (v0 : Vec Ideal S5000x1 .f32) (v4 v6 : Vec Ideal S5000x64 .f32) (v11 : Vec Ideal S64 .f32)
    (agg h : S100000x64.Idx → Elt Ideal .f32) (d : S100000x1.Idx → Elt Ideal .f32) (b : S64.Idx → Elt Ideal .f32)
    (p : Fin 5000) (q : Fin 64) (i : S100000x64.Idx)
    (h4 : v4 (ix2 p q) = agg i) (h6 : v6 (ix2 p q) = h i) (h0 : v0 (ix2 p (0 : Fin 1)) = d (degAt i))
    (h11 : v11 (ix1 q) = b (colAt i)) :
    k1_pay1 v0 v4 v6 v11 (ix2 p q) = comb agg h d b i := by
  rw [pay1_apply, h4, h6, h0, h11]
  rfl

/-! ## From blocks to the array: the first layer -/

theorem zeros2 : (![0, 0] : Fin 2 → Nat) = fun _ => 0 := funext fun a => by fin_cases a <;> rfl
theorem zeros1 : (![0] : Fin 1 → Nat) = fun _ => 0 := funext fun a => by fin_cases a <;> rfl

/-- The block positions over the grid: every 5000-row window sits on the output's block row, which is the grid
    point itself; every window's column position, and the bias window's position, is 0. -/
theorem positions1 : ∀ t : Fin cfg1.N,
    win1_0.index t (0 : Fin 2) = win1_4.index t (0 : Fin 2) ∧ win1_0.index t (1 : Fin 2) = win1_4.index t (1 : Fin 2)
    ∧ win1_1.index t (0 : Fin 2) = win1_4.index t (0 : Fin 2) ∧ win1_1.index t (1 : Fin 2) = win1_4.index t (1 : Fin 2)
    ∧ win1_2.index t (0 : Fin 2) = win1_4.index t (0 : Fin 2) ∧ win1_2.index t (1 : Fin 2) = 0
    ∧ win1_3.index t (0 : Fin 1) = win1_4.index t (1 : Fin 2)
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- What grid point t writes back is block t of the combined layer of the arrays as the region finds them. -/
theorem written1 (c : Dev nD) (t : Fin cfg1.N) :
    (dat1 V c).flushed 4 t
      = ((cfg1.win 4).blk t).view.read (Elt Ideal) (comb (V c main_v40) (V c main_v27) (V c main_v26) (V c main_arg4)) := by
  show (cfg1.win 4).cut (grid1.coords t) ((dat1 V c).after 4 t) = _
  rw [after1_4]
  unfold out1_4
  rw [View.canon_unit_zero zeros2]
  simp only [View.ld_unit_zero (S := S5000x64) zeros2, View.ld_unit_zero (S := S5000x1) zeros2, View.ld_unit_zero (S := S64) zeros1]
  obtain ⟨e0, e1, e2, e3, e4, e5, e6, e7, e8⟩ := positions1 t
  funext j
  obtain ⟨p, q, rfl⟩ : ∃ (p : Fin 5000) (q : Fin 64), j = ix2 p q := ⟨j 0, j 1, eq_ix2 j⟩
  show k1_pay1 (iblk1 V c 2 t) (iblk1 V c 0 t) (iblk1 V c 1 t) (iblk1 V c 3 t) (ix2 p q)
    = comb (V c main_v40) (V c main_v27) (V c main_v26) (V c main_arg4) (((cfg1.win 4).blk t).view.emb (ix2 p q))
  refine pay1_at _ _ _ _ _ _ _ _ p q _ ?_ ?_ ?_ ?_
  · show V c main_v40 (((cfg1.win 0).blk t).view.emb (ix2 p q)) = V c main_v40 (((cfg1.win 4).blk t).view.emb (ix2 p q))
    refine congrArg _ (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 64 + 1 * q.val = win1_4.index t (1 : Fin 2) * 64 + 1 * q.val; omega
  · show V c main_v27 (((cfg1.win 1).blk t).view.emb (ix2 p q)) = V c main_v27 (((cfg1.win 4).blk t).view.emb (ix2 p q))
    refine congrArg _ (funext fun a => Fin.ext ?_)
    match a with
    | ⟨0, _⟩ => show win1_1.index t (0 : Fin 2) * 5000 + 1 * p.val = win1_4.index t (0 : Fin 2) * 5000 + 1 * p.val; omega
    | ⟨1, _⟩ => show win1_1.index t (1 : Fin 2) * 64 + 1 * q.val = win1_4.index t (1 : Fin 2) * 64 + 1 * q.val; omega
  · show V c main_v26 (((cfg1.win 2).blk t).view.emb (ix2 p (0 : Fin 1))) = V c main_v26 (degAt (((cfg1.win 4).blk t).view.emb (ix2 p q)))
    refine congrArg _ (funext fun a => Fin.ext ?_)
    match a with
    | ⟨0, _⟩ => show win1_2.index t (0 : Fin 2) * 5000 + 1 * p.val = win1_4.index t (0 : Fin 2) * 5000 + 1 * p.val; omega
    | ⟨1, _⟩ => show win1_2.index t (1 : Fin 2) * 1 + 1 * 0 = 0; omega
  · show V c main_arg4 (((cfg1.win 3).blk t).view.emb (ix1 q)) = V c main_arg4 (colAt (((cfg1.win 4).blk t).view.emb (ix2 p q)))
    refine congrArg _ (funext fun a => Fin.ext ?_)
    match a with
    | ⟨0, _⟩ => show win1_3.index t (0 : Fin 1) * 64 + 1 * q.val = win1_4.index t (1 : Fin 2) * 64 + 1 * q.val; omega

/-- An index of the output array is in grid point t's block iff each coordinate is in the block's range. -/
theorem mem_block1 (t : Fin cfg1.N) (i : S100000x64.Idx) :
    i ∈ ((cfg1.win 4).blk t).view.set
      ↔ ∀ a : Fin 2, win1_4.index t a * S5000x64.size a ≤ (i a).val ∧ (i a).val < win1_4.index t a * S5000x64.size a + S5000x64.size a := by
  show i ∈ ((View.whole main_v41).slice (win1_4.rect t)).set ↔ _
  rw [View.set_slice_whole, Rect.mem_set_unit]
  exact Iff.rfl

/-- The twenty blocks of 5000 rows tile the 100000 rows: row r is in block r / 5000. -/
theorem tiles1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  have ht : (i 0).val / 5000 < cfg1.N := by omega
  obtain ⟨e0, e1, e2, e3, e4, e5, e6, e7, e8⟩ := positions1 ⟨(i 0).val / 5000, ht⟩
  refine ⟨⟨(i 0).val / 5000, ht⟩, flush1_4 _, ?_⟩
  rw [mem_block1]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e7]; show (i 0).val / 5000 * 5000 ≤ (i 0).val ∧ (i 0).val < (i 0).val / 5000 * 5000 + 5000; omega
  | ⟨1, _⟩ =>
    show win1_4.index ⟨(i 0).val / 5000, ht⟩ (1 : Fin 2) * 64 ≤ (i 1).val
      ∧ (i 1).val < win1_4.index ⟨(i 0).val / 5000, ht⟩ (1 : Fin 2) * 64 + 64
    rw [e8]; omega

/-- So the first combine region leaves the combined layer of its input arrays in its output array. -/
theorem final1 (c : Dev nD) :
    (dat1 V c).arrAt 4 cfg1.N = comb (V c main_v40) (V c main_v27) (V c main_v26) (V c main_arg4) :=
  (dat1 V c).arrAt_eq_of_cover 4 (comb (V c main_v40) (V c main_v27) (V c main_v26) (V c main_arg4))
    (fun t _ => written1 V c t) tiles1
/-! ## From blocks to the array: the second layer -/

/-- The block positions over the grid: every 5000-row window sits on the output's block row, which is the grid
    point itself; every window's column position, and the bias window's position, is 0. -/
theorem positions3 : ∀ t : Fin cfg3.N,
    win3_0.index t (0 : Fin 2) = win3_4.index t (0 : Fin 2) ∧ win3_0.index t (1 : Fin 2) = win3_4.index t (1 : Fin 2)
    ∧ win3_1.index t (0 : Fin 2) = win3_4.index t (0 : Fin 2) ∧ win3_1.index t (1 : Fin 2) = win3_4.index t (1 : Fin 2)
    ∧ win3_2.index t (0 : Fin 2) = win3_4.index t (0 : Fin 2) ∧ win3_2.index t (1 : Fin 2) = 0
    ∧ win3_3.index t (0 : Fin 1) = win3_4.index t (1 : Fin 2)
    ∧ win3_4.index t (0 : Fin 2) = t.val ∧ win3_4.index t (1 : Fin 2) = 0 :=
  (by decide +kernel : ∀ t : Fin grid3.N, _)

/-- What grid point t writes back is block t of the combined layer of the arrays as the region finds them. -/
theorem written3 (c : Dev nD) (t : Fin cfg3.N) :
    (dat3 V c).flushed 4 t
      = ((cfg3.win 4).blk t).view.read (Elt Ideal) (comb (V c main_v55) (V c main_v42) (V c main_v26) (V c main_arg6)) := by
  show (cfg3.win 4).cut (grid3.coords t) ((dat3 V c).after 4 t) = _
  rw [after3_4]
  unfold out3_4
  rw [View.canon_unit_zero zeros2, pay3_eq]
  simp only [View.ld_unit_zero (S := S5000x64) zeros2, View.ld_unit_zero (S := S5000x1) zeros2, View.ld_unit_zero (S := S64) zeros1]
  obtain ⟨e0, e1, e2, e3, e4, e5, e6, e7, e8⟩ := positions3 t
  funext j
  obtain ⟨p, q, rfl⟩ : ∃ (p : Fin 5000) (q : Fin 64), j = ix2 p q := ⟨j 0, j 1, eq_ix2 j⟩
  show k1_pay1 (iblk3 V c 2 t) (iblk3 V c 0 t) (iblk3 V c 1 t) (iblk3 V c 3 t) (ix2 p q)
    = comb (V c main_v55) (V c main_v42) (V c main_v26) (V c main_arg6) (((cfg3.win 4).blk t).view.emb (ix2 p q))
  refine pay1_at _ _ _ _ _ _ _ _ p q _ ?_ ?_ ?_ ?_
  · show V c main_v55 (((cfg3.win 0).blk t).view.emb (ix2 p q)) = V c main_v55 (((cfg3.win 4).blk t).view.emb (ix2 p q))
    refine congrArg _ (funext fun a => Fin.ext ?_)
    match a with
    | ⟨0, _⟩ => show win3_0.index t (0 : Fin 2) * 5000 + 1 * p.val = win3_4.index t (0 : Fin 2) * 5000 + 1 * p.val; omega
    | ⟨1, _⟩ => show win3_0.index t (1 : Fin 2) * 64 + 1 * q.val = win3_4.index t (1 : Fin 2) * 64 + 1 * q.val; omega
  · show V c main_v42 (((cfg3.win 1).blk t).view.emb (ix2 p q)) = V c main_v42 (((cfg3.win 4).blk t).view.emb (ix2 p q))
    refine congrArg _ (funext fun a => Fin.ext ?_)
    match a with
    | ⟨0, _⟩ => show win3_1.index t (0 : Fin 2) * 5000 + 1 * p.val = win3_4.index t (0 : Fin 2) * 5000 + 1 * p.val; omega
    | ⟨1, _⟩ => show win3_1.index t (1 : Fin 2) * 64 + 1 * q.val = win3_4.index t (1 : Fin 2) * 64 + 1 * q.val; omega
  · show V c main_v26 (((cfg3.win 2).blk t).view.emb (ix2 p (0 : Fin 1))) = V c main_v26 (degAt (((cfg3.win 4).blk t).view.emb (ix2 p q)))
    refine congrArg _ (funext fun a => Fin.ext ?_)
    match a with
    | ⟨0, _⟩ => show win3_2.index t (0 : Fin 2) * 5000 + 1 * p.val = win3_4.index t (0 : Fin 2) * 5000 + 1 * p.val; omega
    | ⟨1, _⟩ => show win3_2.index t (1 : Fin 2) * 1 + 1 * 0 = 0; omega
  · show V c main_arg6 (((cfg3.win 3).blk t).view.emb (ix1 q)) = V c main_arg6 (colAt (((cfg3.win 4).blk t).view.emb (ix2 p q)))
    refine congrArg _ (funext fun a => Fin.ext ?_)
    match a with
    | ⟨0, _⟩ => show win3_3.index t (0 : Fin 1) * 64 + 1 * q.val = win3_4.index t (1 : Fin 2) * 64 + 1 * q.val; omega

/-- An index of the output array is in grid point t's block iff each coordinate is in the block's range. -/
theorem mem_block3 (t : Fin cfg3.N) (i : S100000x64.Idx) :
    i ∈ ((cfg3.win 4).blk t).view.set
      ↔ ∀ a : Fin 2, win3_4.index t a * S5000x64.size a ≤ (i a).val ∧ (i a).val < win3_4.index t a * S5000x64.size a + S5000x64.size a := by
  show i ∈ ((View.whole main_v56).slice (win3_4.rect t)).set ↔ _
  rw [View.set_slice_whole, Rect.mem_set_unit]
  exact Iff.rfl

/-- The twenty blocks of 5000 rows tile the 100000 rows: row r is in block r / 5000. -/
theorem tiles3 (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 20 := N_3
  have ht : (i 0).val / 5000 < cfg3.N := by omega
  obtain ⟨e0, e1, e2, e3, e4, e5, e6, e7, e8⟩ := positions3 ⟨(i 0).val / 5000, ht⟩
  refine ⟨⟨(i 0).val / 5000, ht⟩, flush3_4 _, ?_⟩
  rw [mem_block3]
  intro a
  match a with
  | ⟨0, _⟩ =>
    show win3_4.index ⟨(i 0).val / 5000, ht⟩ (0 : Fin 2) * 5000 ≤ (i 0).val
      ∧ (i 0).val < win3_4.index ⟨(i 0).val / 5000, ht⟩ (0 : Fin 2) * 5000 + 5000
    rw [e7]; show (i 0).val / 5000 * 5000 ≤ (i 0).val ∧ (i 0).val < (i 0).val / 5000 * 5000 + 5000; omega
  | ⟨1, _⟩ =>
    show win3_4.index ⟨(i 0).val / 5000, ht⟩ (1 : Fin 2) * 64 ≤ (i 1).val
      ∧ (i 1).val < win3_4.index ⟨(i 0).val / 5000, ht⟩ (1 : Fin 2) * 64 + 64
    rw [e8]; omega

/-- So the second combine region leaves the combined layer of its input arrays in its output array. -/
theorem final3 (c : Dev nD) :
    (dat3 V c).arrAt 4 cfg3.N = comb (V c main_v55) (V c main_v42) (V c main_v26) (V c main_arg6) :=
  (dat3 V c).arrAt_eq_of_cover 4 (comb (V c main_v55) (V c main_v42) (V c main_v26) (V c main_arg6))
    (fun t _ => written3 V c t) tiles3

/-! ## The reference's chain of elementwise operations is the combined layer -/

open Cert.ReferenceIdeal.Read

/-- The reference spreads the reciprocal degrees over the columns in two steps; together they read the row. -/
theorem row_of_spread1 (i : S100000x64.Idx) : idx_main_v42 (idx_main_v43 i) = rowAt i :=
  funext fun a => match a with | ⟨0, _⟩ => rfl
/-- The reference spreads the bias over the rows in two steps; together they read the column. -/
theorem col_of_spread1 (i : S100000x64.Idx) : idx_main_v46 (idx_main_v47 i) = colAt i :=
  funext fun a => match a with | ⟨0, _⟩ => rfl
theorem row_of_spread3 (i : S100000x64.Idx) : idx_main_v88 (idx_main_v89 i) = rowAt i :=
  funext fun a => match a with | ⟨0, _⟩ => rfl
theorem col_of_spread3 (i : S100000x64.Idx) : idx_main_v92 (idx_main_v93 i) = colAt i :=
  funext fun a => match a with | ⟨0, _⟩ => rfl

/-- First layer: with the degree column holding, on each row, the reference's degree of that row, the combined
    layer of the reference's aggregate and projection is the reference's clamped sum. -/
theorem comb_eq_ref1 (x0 : (⟨Cert.ReferenceIdeal.S100000x128, .f32⟩ : BufTy).Contents (Elt Ideal))
    (x1 : (⟨Cert.ReferenceIdeal.S2x1200000, .i32⟩ : BufTy).Contents (Elt Ideal))
    (x3 : (⟨Cert.ReferenceIdeal.S128x64, .f32⟩ : BufTy).Contents (Elt Ideal))
    (x4 : (⟨Cert.ReferenceIdeal.S64, .f32⟩ : BufTy).Contents (Elt Ideal))
    (d : S100000x1.Idx → Elt Ideal .f32)
    (hd : ∀ i : S100000x64.Idx, d (degAt i) = val_main_v10 (F := Ideal) x1 (rowAt i)) :
    comb (val_main_v39 (F := Ideal) x0 x1 x3) (val_main_v4 (F := Ideal) x0 x3) d x4
      = val_main_v49 (F := Ideal) x0 x1 x3 x4 := by
  funext i
  rw [val_main_v49_apply, val_main_v48_apply, val_main_v45_apply, val_main_v44_apply, val_main_v43_apply,
    val_main_v42_apply, val_main_v41_apply, val_main_v40_apply, val_main_cst_8_apply, val_main_v47_apply,
    val_main_v46_apply, val_main_call0_v0_apply, val_main_call0_cst_apply, row_of_spread1, col_of_spread1, ← hd i]
  generalize val_main_v39 (F := Ideal) x0 x1 x3 = A
  generalize val_main_v4 (F := Ideal) x0 x3 = H
  rfl

/-- Second layer: the same, over the second layer's aggregate, projection, degrees and bias. -/
theorem comb_eq_ref3 (x0 : (⟨Cert.ReferenceIdeal.S100000x128, .f32⟩ : BufTy).Contents (Elt Ideal))
    (x1 : (⟨Cert.ReferenceIdeal.S2x1200000, .i32⟩ : BufTy).Contents (Elt Ideal))
    (x3 : (⟨Cert.ReferenceIdeal.S128x64, .f32⟩ : BufTy).Contents (Elt Ideal))
    (x4 : (⟨Cert.ReferenceIdeal.S64, .f32⟩ : BufTy).Contents (Elt Ideal))
    (x5 : (⟨Cert.ReferenceIdeal.S64x64, .f32⟩ : BufTy).Contents (Elt Ideal))
    (x6 : (⟨Cert.ReferenceIdeal.S64, .f32⟩ : BufTy).Contents (Elt Ideal))
    (d : S100000x1.Idx → Elt Ideal .f32)
    (hd : ∀ i : S100000x64.Idx, d (degAt i) = val_main_v56 (F := Ideal) x1 (rowAt i)) :
    comb (val_main_v85 (F := Ideal) x0 x1 x3 x4 x5) (val_main_v50 (F := Ideal) x0 x1 x3 x4 x5) d x6
      = val_main_v95 (F := Ideal) x0 x1 x3 x4 x5 x6 := by
  funext i
  rw [val_main_v95_apply, val_main_v94_apply, val_main_v91_apply, val_main_v90_apply, val_main_v89_apply,
    val_main_v88_apply, val_main_v87_apply, val_main_v86_apply, val_main_cst_19_apply, val_main_v93_apply,
    val_main_v92_apply, val_main_call1_v0_apply, val_main_call1_cst_apply, row_of_spread3, col_of_spread3, ← hd i]
  generalize val_main_v85 (F := Ideal) x0 x1 x3 x4 x5 = A
  generalize val_main_v50 (F := Ideal) x0 x1 x3 x4 x5 = H
  rfl

end Cert.Bridge.Combine

end
-- ==== Proof.RegionEdge.lean ====
import proofs.«180773_j44023414784047_2_alg».proof.Proof.Gen.KernelIdeal.Frame
import proofs.«180773_j44023414784047_2_alg».proof.Proof.Gen.ReferenceIdeal.Read
import proofs.«180773_j44023414784047_2_alg».proof.Proof.LibPlainDot
import Idealize.ShloMosaic.Lib.Pipeline.Value
import Idealize.ShloMosaic.Lib.Pipeline.FrameBody
import Idealize.ShloMosaic.Lib.Pipeline.Frame
import Idealize.ShloMosaic.Lib.ValueIdx
import Idealize.ShloMosaic.Lib.ValueLayout
import Idealize.ShloMosaic.PureOps.Ideal.Laws

noncomputable section

namespace Cert.Bridge.Edge

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

/-- One of four values, by its number. -/
def pick {β : Type} (n : Fin 4) (b0 b1 b2 b3 : β) : β :=
  match n with | ⟨0, _⟩ => b0 | ⟨1, _⟩ => b1 | ⟨2, _⟩ => b2 | ⟨3, _⟩ => b3

/-- Four arrays of 64 columns joined along the columns: column 64 n + c of the joined array is column c of
    array number n, row by row. -/
theorem join4_apply {α : Type} {R : Nat} (a0 a1 a2 a3 : (⟨2, ![R, 64]⟩ : Shape).Idx → α)
    (h : Shape.Concatenates [(⟨2, ![R, 64]⟩ : Shape), ⟨2, ![R, 64]⟩, ⟨2, ![R, 64]⟩, ⟨2, ![R, 64]⟩] ⟨2, ![R, 256]⟩ 1)
    (p : Fin R) (k : Fin 256) (n : Fin 4) (c : Fin 64) (hk : k.val = 64 * n.val + c.val) :
    concatenate ⟨2, ![R, 256]⟩ 1 [⟨⟨2, ![R, 64]⟩, a0⟩, ⟨⟨2, ![R, 64]⟩, a1⟩, ⟨⟨2, ![R, 64]⟩, a2⟩, ⟨⟨2, ![R, 64]⟩, a3⟩] h (ix2 p k)
      = pick n (a0 (ix2 p c)) (a1 (ix2 p c)) (a2 (ix2 p c)) (a3 (ix2 p c)) := by
  have hi : ∀ b : Fin 2, b.cast rfl ≠ (1 : Fin 2) →
      ((ix2 p c : (⟨2, ![R, 64]⟩ : Shape).Idx) b).val = ((ix2 p k : (⟨2, ![R, 256]⟩ : Shape).Idx) (b.cast rfl)).val := fun b hb => by
    match b with
    | ⟨0, _⟩ => rfl
    | ⟨1, _⟩ => exact absurd rfl hb
  match n with
  | ⟨0, _⟩ =>
    exact concatenate_apply_piece (t := ⟨2, ![R, 256]⟩) 1
      [⟨⟨2, ![R, 64]⟩, a0⟩, ⟨⟨2, ![R, 64]⟩, a1⟩, ⟨⟨2, ![R, 64]⟩, a2⟩, ⟨⟨2, ![R, 64]⟩, a3⟩] h (ix2 p k)
      0 (by show 0 < 4; omega) ⟨2, ![R, 64]⟩ a0 rfl rfl 0 rfl (ix2 p c) hi
      (by have : k.val = 64 * 0 + c.val := hk; show 0 + c.val = k.val; omega)
  | ⟨1, _⟩ =>
    exact concatenate_apply_piece (t := ⟨2, ![R, 256]⟩) 1
      [⟨⟨2, ![R, 64]⟩, a0⟩, ⟨⟨2, ![R, 64]⟩, a1⟩, ⟨⟨2, ![R, 64]⟩, a2⟩, ⟨⟨2, ![R, 64]⟩, a3⟩] h (ix2 p k)
      1 (by show 1 < 4; omega) ⟨2, ![R, 64]⟩ a1 rfl rfl 64 rfl (ix2 p c) hi
      (by have : k.val = 64 * 1 + c.val := hk; show 64 + c.val = k.val; omega)
  | ⟨2, _⟩ =>
    exact concatenate_apply_piece (t := ⟨2, ![R, 256]⟩) 1
      [⟨⟨2, ![R, 64]⟩, a0⟩, ⟨⟨2, ![R, 64]⟩, a1⟩, ⟨⟨2, ![R, 64]⟩, a2⟩, ⟨⟨2, ![R, 64]⟩, a3⟩] h (ix2 p k)
      2 (by show 2 < 4; omega) ⟨2, ![R, 64]⟩ a2 rfl rfl 128 rfl (ix2 p c) hi
      (by have : k.val = 64 * 2 + c.val := hk; show 128 + c.val = k.val; omega)
  | ⟨3, _⟩ =>
    exact concatenate_apply_piece (t := ⟨2, ![R, 256]⟩) 1
      [⟨⟨2, ![R, 64]⟩, a0⟩, ⟨⟨2, ![R, 64]⟩, a1⟩, ⟨⟨2, ![R, 64]⟩, a2⟩, ⟨⟨2, ![R, 64]⟩, a3⟩] h (ix2 p k)
      3 (by show 3 < 4; omega) ⟨2, ![R, 64]⟩ a3 rfl rfl 192 rfl (ix2 p c) hi
      (by have : k.val = 64 * 3 + c.val := hk; show 192 + c.val = k.val; omega)

/-- The features of one block of 5000 edges: the two end points' rows, the absolute value of their difference and
    their product, side by side. -/
def featBlk (x0 x1 : FVec Ideal S5000x64 .f32) : FVec Ideal S5000x256 .f32 :=
  concatenate S5000x256 1 [⟨S5000x64, x0⟩, ⟨S5000x64, x1⟩, ⟨S5000x64, absf (subf x0 x1)⟩, ⟨S5000x64, mulf x0 x1⟩]
    concatenates_S5000x64_S5000x64_S5000x64_S5000x64_S5000x256_d1

/-- What one grid point stores, entry by entry: the two-layer perceptron of the block's features. -/
theorem pay_apply (x0 x1 : FVec Ideal S5000x64 .f32) (x2 : FVec Ideal S256x64 .f32) (x3 : FVec Ideal S64 .f32)
    (x4 : FVec Ideal S64x1 .f32) (x5 : FVec Ideal S1 .f32) (p : Fin 5000) (q : Fin 1) :
    k4_pay1 x0 x1 x2 x3 x4 x5 (ix2 p q) =
      FloatOps.addf (∑ j : Fin 64, FloatOps.maximumf (FloatOps.addf (∑ k : Fin 256, featBlk x0 x1 (ix2 p k) * x2 (ix2 k j)) (x3 (ix1 j)))
        (FloatOps.ofBits .f32 0x00000000#32) * x4 (ix2 j q)) (x5 (ix1 q)) := by
  unfold k4_pay1
  rw [shapeCast_self x0, shapeCast_self x1]
  refine congrArg₂ (FloatOps.addf (F := Ideal) (φ := .f32)) ?_
    ((broadcastTo_1b_ab_apply _ _ p q).trans (shapeCast_a_1a_apply x5 _ 0 q))
  refine (Cert.PlainDot.matmul_zero_apply 5000 64 1 none _ _ p q).trans ?_
  refine Finset.sum_congr rfl fun j _ => ?_
  refine congrArg (· * x4 (ix2 j q)) ?_
  refine congrArg₂ (FloatOps.maximumf (F := Ideal) (φ := .f32)) ?_ rfl
  refine congrArg₂ (FloatOps.addf (F := Ideal) (φ := .f32)) ?_
    ((broadcastTo_1b_ab_apply _ _ p j).trans (shapeCast_a_1a_apply x3 _ 0 j))
  refine (Cert.PlainDot.matmul_zero_apply 5000 256 64 none _ _ p j).trans ?_
  exact Finset.sum_congr rfl fun k _ => rfl

/-- The features of all the edges: the same four arrays side by side, over all 500000 rows. -/
def feat (u v : S500000x64.Idx → Elt Ideal .f32) : FVec Ideal Cert.ReferenceIdeal.S500000x256 .f32 :=
  concatenate Cert.ReferenceIdeal.S500000x256 1
    [⟨S500000x64, u⟩, ⟨S500000x64, v⟩,
      ⟨S500000x64, Host.absf (F := Ideal) (φ := .f32) (subf (F := Ideal) (φ := .f32) u v)⟩,
      ⟨S500000x64, mulf (F := Ideal) (φ := .f32) u v⟩]
    Cert.ReferenceIdeal.Gen.concatenates_S500000x64_S500000x64_S500000x64_S500000x64_S500000x256_d1

/-- The score of every edge: a hidden layer of 64 rectified units over the edge's 256 features, then one
    output unit. -/
def head (u v : S500000x64.Idx → Elt Ideal .f32) (M1 : S256x64.Idx → Elt Ideal .f32) (b1 : S64.Idx → Elt Ideal .f32)
    (M2 : S64x1.Idx → Elt Ideal .f32) (b2 : S1.Idx → Elt Ideal .f32) : S500000x1.Idx → Elt Ideal .f32 := fun i =>
  FloatOps.addf (F := Ideal) (φ := .f32)
    (∑ j : Fin 64,
      FloatOps.maximumf (F := Ideal) (φ := .f32)
        (FloatOps.addf (F := Ideal) (φ := .f32)
          (∑ k : Fin 256, feat u v (ix2 (⟨(i 0).val, idx2_lt0 i⟩ : Fin 500000) k) * (M1 (ix2 k j) : Ideal .f32))
          (b1 (ix1 j)))
        (FloatOps.ofBits .f32 0x00000000#32) * (M2 (ix2 j (0 : Fin 1)) : Ideal .f32))
    (b2 (ix1 (0 : Fin 1)))

/-- The features of a block of edges are the block's rows of the features of all the edges. -/
theorem featBlk_eq (x0 x1 : FVec Ideal S5000x64 .f32) (u v : S500000x64.Idx → Elt Ideal .f32) (p : Fin 5000) (r : Fin 500000)
    (h0 : ∀ c : Fin 64, x0 (ix2 p c) = u (ix2 r c)) (h1 : ∀ c : Fin 64, x1 (ix2 p c) = v (ix2 r c)) (k : Fin 256) :
    featBlk x0 x1 (ix2 p k) = feat u v (ix2 r k) := by
  have hk : k.val < 256 := k.isLt
  have hkn : k.val = 64 * (⟨k.val / 64, by omega⟩ : Fin 4).val + (⟨k.val % 64, by omega⟩ : Fin 64).val := by
    show k.val = 64 * (k.val / 64) + k.val % 64; omega
  unfold featBlk feat
  rw [join4_apply (R := 5000) _ _ _ _ _ p k _ _ hkn, join4_apply (R := 500000) _ _ _ _ _ r k _ _ hkn]
  generalize (⟨k.val % 64, by omega⟩ : Fin 64) = c
  generalize (⟨k.val / 64, by omega⟩ : Fin 4) = n
  match n with
  | ⟨0, _⟩ => exact h0 c
  | ⟨1, _⟩ => exact h1 c
  | ⟨2, _⟩ =>
    show FloatOps.absf (FloatOps.subf (x0 (ix2 p c)) (x1 (ix2 p c))) = FloatOps.hostAbsf (FloatOps.subf (u (ix2 r c)) (v (ix2 r c)))
    rw [h0 c, h1 c]; rfl
  | ⟨3, _⟩ =>
    show FloatOps.mulf (x0 (ix2 p c)) (x1 (ix2 p c)) = FloatOps.mulf (u (ix2 r c)) (v (ix2 r c))
    rw [h0 c, h1 c]

/-- What a grid point stores at row p is the score of edge r, when row p of its two blocks is row r of the two
    gathered arrays. -/
theorem pay_eq_head (x0 x1 : FVec Ideal S5000x64 .f32) (u v : S500000x64.Idx → Elt Ideal .f32)
    (M1 : FVec Ideal S256x64 .f32) (b1 : FVec Ideal S64 .f32) (M2 : FVec Ideal S64x1 .f32) (b2 : FVec Ideal S1 .f32)
    (p : Fin 5000) (q : Fin 1) (r : Fin 500000) (s : Fin 1)
    (h0 : ∀ c : Fin 64, x0 (ix2 p c) = u (ix2 r c)) (h1 : ∀ c : Fin 64, x1 (ix2 p c) = v (ix2 r c)) :
    k4_pay1 (F := Ideal) x0 x1 M1 b1 M2 b2 (ix2 p q) = head u v M1 b1 M2 b2 (ix2 r s) := by
  obtain rfl : q = 0 := Subsingleton.elim _ _
  rw [pay_apply]
  unfold head
  refine congrArg (fun z => FloatOps.addf (F := Ideal) (φ := .f32) z (b2 (ix1 (0 : Fin 1)))) ?_
  refine Finset.sum_congr rfl fun j _ => ?_
  refine congrArg (fun z => FloatOps.maximumf (F := Ideal) (φ := .f32) (FloatOps.addf (F := Ideal) (φ := .f32) z (b1 (ix1 j))) (FloatOps.ofBits .f32 0x00000000#32) * M2 (ix2 j (0 : Fin 1))) ?_
  refine Finset.sum_congr rfl fun k _ => ?_
  rw [featBlk_eq x0 x1 u v p r h0 h1 k]

/-! ## From the blocks to the array -/

section Region
variable (V : (c : Dev nD) → (b : Ref sig .tc) → Buf (Elt Ideal) ((c : Thread nD τ).loc b))

theorem zeros2 : (![0, 0] : Fin 2 → Nat) = fun _ => 0 := by
  funext a; match a with | ⟨0, _⟩ => rfl | ⟨1, _⟩ => rfl

/-- The one zero offset of a rank-1 rectangle, as the constant function. -/
theorem zeros1 : (![0] : Fin 1 → Nat) = fun _ => 0 := funext fun a => by match a with | ⟨0, _⟩ => rfl

/-- Where each window's block sits at grid point t: the two gathered arrays and the scores move down one block of
    rows per point, the four weight arrays stay where they are. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = 0 ∧ win4_4.index t (1 : Fin 2) = 0
    ∧ win4_5.index t (0 : Fin 1) = 0
    ∧ win4_6.index t (0 : Fin 2) = t.val ∧ win4_6.index t (1 : Fin 2) = 0 :=
  (by decide +kernel : ∀ t : Fin grid4.N, _)

/-- Row p of the first gathered array's block at point t is row t·5000 + p of the array. -/
theorem blk_u (c : Dev nD) (t : Fin cfg4.N) (p : Fin 5000) (k : Fin 64) (r : Fin 500000) (hr : r.val = t.val * 5000 + p.val) :
    (iblk4 V c 0 t : Vec Ideal S5000x64 .f32) (ix2 p k) = (V c main_v67 : S500000x64.Idx → Elt Ideal .f32) (ix2 r k) := by
  obtain ⟨e0, e1, -⟩ := idx_facts t
  unfold iblk4
  rw [View.read_apply]
  show V c main_v67 _ = V c main_v67 _
  congr 1
  funext a; apply Fin.ext
  match a with
  | ⟨0, _⟩ => show win4_0.index t (0 : Fin 2) * 5000 + 1 * p.val = r.val; omega
  | ⟨1, _⟩ => show win4_0.index t (1 : Fin 2) * 64 + 1 * k.val = k.val; omega

/-- The same for the second gathered array. -/
theorem blk_v (c : Dev nD) (t : Fin cfg4.N) (p : Fin 5000) (k : Fin 64) (r : Fin 500000) (hr : r.val = t.val * 5000 + p.val) :
    (iblk4 V c 1 t : Vec Ideal S5000x64 .f32) (ix2 p k) = (V c main_v74 : S500000x64.Idx → Elt Ideal .f32) (ix2 r k) := by
  obtain ⟨-, -, e0, e1, -⟩ := idx_facts t
  unfold iblk4
  rw [View.read_apply]
  show V c main_v74 _ = V c main_v74 _
  congr 1
  funext a; apply Fin.ext
  match a with
  | ⟨0, _⟩ => show win4_1.index t (0 : Fin 2) * 5000 + 1 * p.val = r.val; omega
  | ⟨1, _⟩ => show win4_1.index t (1 : Fin 2) * 64 + 1 * k.val = k.val; omega

/-- The first layer's weights are read whole at every point. -/
theorem blk_M1 (c : Dev nD) (t : Fin cfg4.N) : (iblk4 V c 2 t : Vec Ideal S256x64 .f32) = V c main_arg7 := by
  obtain ⟨-, -, -, -, e0, e1, -⟩ := idx_facts t
  funext y
  unfold iblk4
  rw [View.read_apply]
  show V c main_arg7 _ = V c main_arg7 y
  congr 1
  funext a; apply Fin.ext
  match a with
  | ⟨0, _⟩ => show win4_2.index t (0 : Fin 2) * 256 + 1 * (y 0).val = (y 0).val; omega
  | ⟨1, _⟩ => show win4_2.index t (1 : Fin 2) * 64 + 1 * (y 1).val = (y 1).val; omega

/-- So is the first layer's bias … -/
theorem blk_b1 (c : Dev nD) (t : Fin cfg4.N) : (iblk4 V c 3 t : Vec Ideal S64 .f32) = V c main_arg8 := by
  obtain ⟨-, -, -, -, -, -, e0, -⟩ := idx_facts t
  funext y
  unfold iblk4
  rw [View.read_apply]
  show V c main_arg8 _ = V c main_arg8 y
  congr 1
  funext a; apply Fin.ext
  match a with
  | ⟨0, _⟩ => show win4_3.index t (0 : Fin 1) * 64 + 1 * (y 0).val = (y 0).val; omega

/-- … the second layer's weights … -/
theorem blk_M2 (c : Dev nD) (t : Fin cfg4.N) : (iblk4 V c 4 t : Vec Ideal S64x1 .f32) = V c main_arg9 := by
  obtain ⟨-, -, -, -, -, -, -, e0, e1, -⟩ := idx_facts t
  funext y
  unfold iblk4
  rw [View.read_apply]
  show V c main_arg9 _ = V c main_arg9 y
  congr 1
  funext a; apply Fin.ext
  match a with
  | ⟨0, _⟩ => show win4_4.index t (0 : Fin 2) * 64 + 1 * (y 0).val = (y 0).val; omega
  | ⟨1, _⟩ => show win4_4.index t (1 : Fin 2) * 1 + 1 * (y 1).val = (y 1).val; omega

/-- … and the second layer's bias. -/
theorem blk_b2 (c : Dev nD) (t : Fin cfg4.N) : (iblk4 V c 5 t : Vec Ideal S1 .f32) = V c main_arg10 := by
  obtain ⟨-, -, -, -, -, -, -, -, -, e0, -⟩ := idx_facts t
  funext y
  unfold iblk4
  rw [View.read_apply]
  show V c main_arg10 _ = V c main_arg10 y
  congr 1
  funext a; apply Fin.ext
  match a with
  | ⟨0, _⟩ => show win4_5.index t (0 : Fin 1) * 1 + 1 * (y 0).val = (y 0).val; omega

end Region

section Region2
variable (V : (c : Dev nD) → (b : Ref sig .tc) → Buf (Elt Ideal) ((c : Thread nD τ).loc b))

/-- What point t writes back is block t of the scores of all the edges. -/
theorem flushed_eq (c : Dev nD) (t : Fin cfg4.N) :
    (dat4 V c).flushed 6 t = ((cfg4.win 6).blk t).view.read (Elt Ideal)
      (head (V c main_v67) (V c main_v74) (V c main_arg7) (V c main_arg8) (V c main_arg9) (V c main_arg10)) := by
  show (cfg4.win 6).cut (grid4.coords t) ((dat4 V c).after 6 t) = _
  rw [after4_6]
  unfold out4_6
  rw [View.canon_unit_zero zeros2]
  simp only [View.ld_unit_zero (S := S5000x64) zeros2,
    View.ld_unit_zero (S := S256x64) zeros2, View.ld_unit_zero (S := S64) zeros1,
    View.ld_unit_zero (S := S64x1) zeros2, View.ld_unit_zero (S := S1) zeros1]
  rw [blk_M1 V c t, blk_b1 V c t, blk_M2 V c t, blk_b2 V c t]
  obtain ⟨-, -, -, -, -, -, -, -, -, -, e0, e1⟩ := idx_facts t
  have ht : t.val < 100 := Nat.lt_of_lt_of_eq t.isLt N_4
  funext j
  have hj0 : (j 0).val < 5000 := (j 0).isLt
  have hj1 : (j 1).val < 1 := (j 1).isLt
  have ej : (cfg4.win 6).xinj (grid4.coords t) j
      = (ix2 (⟨(j 0).val, hj0⟩ : Fin 5000) (⟨(j 1).val, hj1⟩ : Fin 1) : S5000x1.Idx) := by
    funext a
    match a with
    | ⟨0, _⟩ => rfl
    | ⟨1, _⟩ => rfl
  have er : ((cfg4.win 6).blk t).view.emb j
      = (ix2 (⟨t.val * 5000 + (j 0).val, by omega⟩ : Fin 500000) (⟨(j 1).val, hj1⟩ : Fin 1) : S500000x1.Idx) := by
    funext a; apply Fin.ext
    match a with
    | ⟨0, _⟩ => show win4_6.index t (0 : Fin 2) * 5000 + 1 * (j 0).val = t.val * 5000 + (j 0).val; omega
    | ⟨1, _⟩ => show win4_6.index t (1 : Fin 2) * 1 + 1 * (j 1).val = (j 1).val; omega
  show k4_pay1 (F := Ideal) _ _ _ _ _ _ ((cfg4.win 6).xinj (grid4.coords t) j) = head _ _ _ _ _ _ (((cfg4.win 6).blk t).view.emb j)
  rw [ej, er]
  exact pay_eq_head _ _ _ _ _ _ _ _ _ _ _ _ (fun k => blk_u V c t _ k _ rfl) (fun k => blk_v V c t _ k _ rfl)

/-- An edge's score is in point t's block iff its row is among the block's 5000. -/
theorem mem_blk (t : Fin cfg4.N) (i : S500000x1.Idx) :
    i ∈ ((cfg4.win 6).blk t).view.set ↔ ∀ a : Fin 2, win4_6.index t a * S5000x1.size a ≤ (i a).val
      ∧ (i a).val < win4_6.index t a * S5000x1.size a + S5000x1.size a := by
  show i ∈ ((View.whole main_v75).slice (win4_6.rect t)).set ↔ _
  rw [View.set_slice_whole, Rect.mem_set_unit]
  exact Iff.rfl

/-- Every edge's score is written by the point its row's block of 5000 names. -/
theorem cover (i : S500000x1.Idx) :
    ∃ t : Fin cfg4.N, (cfg4.win 6).flush t = true ∧ i ∈ ((cfg4.win 6).blk t).view.set := by
  have hi0 : (i 0).val < 500000 := (i 0).isLt
  have hi1 : (i 1).val < 1 := (i 1).isLt
  have hN : (i 0).val / 5000 < cfg4.N := Nat.lt_of_lt_of_eq (by omega : (i 0).val / 5000 < 100) N_4.symm
  obtain ⟨-, -, -, -, -, -, -, -, -, -, e0, e1⟩ := idx_facts ⟨(i 0).val / 5000, hN⟩
  refine ⟨⟨(i 0).val / 5000, hN⟩, flush4_6 _, ?_⟩
  rw [mem_blk]
  intro a
  match a with
  | ⟨0, _⟩ =>
    show win4_6.index ⟨(i 0).val / 5000, hN⟩ (0 : Fin 2) * 5000 ≤ (i 0).val
      ∧ (i 0).val < win4_6.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win4_6.index ⟨(i 0).val / 5000, hN⟩ (1 : Fin 2) * 1 ≤ (i 1).val
      ∧ (i 1).val < win4_6.index ⟨(i 0).val / 5000, hN⟩ (1 : Fin 2) * 1 + 1
    rw [e1]; omega

/-- The scores' array after the region: the scores of all the edges, from the region's entry contents. -/
theorem final4 (c : Dev nD) : (dat4 V c).arrAt 6 cfg4.N
    = head (V c main_v67) (V c main_v74) (V c main_arg7) (V c main_arg8) (V c main_arg9) (V c main_arg10) :=
  (dat4 V c).arrAt_eq_of_cover 6
    (head (V c main_v67) (V c main_v74) (V c main_arg7) (V c main_arg8) (V c main_arg9) (V c main_arg10))
    (fun t _ => flushed_eq V c t) cover

end Region2

/-! ## The reference's head -/

/-- The reference computes the same scores from its two gathered arrays: its operations read at an index, one by one. -/
theorem head_eq_ref
    (x0 : (⟨Cert.ReferenceIdeal.S100000x128, .f32⟩ : BufTy).Contents (Elt Ideal))
    (x1 : (⟨Cert.ReferenceIdeal.S2x1200000, .i32⟩ : BufTy).Contents (Elt Ideal))
    (x2 : (⟨Cert.ReferenceIdeal.S2x500000, .i32⟩ : BufTy).Contents (Elt Ideal))
    (x3 : (⟨Cert.ReferenceIdeal.S128x64, .f32⟩ : BufTy).Contents (Elt Ideal))
    (x4 : (⟨Cert.ReferenceIdeal.S64, .f32⟩ : BufTy).Contents (Elt Ideal))
    (x5 : (⟨Cert.ReferenceIdeal.S64x64, .f32⟩ : BufTy).Contents (Elt Ideal))
    (x6 : (⟨Cert.ReferenceIdeal.S64, .f32⟩ : BufTy).Contents (Elt Ideal))
    (x7 : (⟨Cert.ReferenceIdeal.S256x64, .f32⟩ : BufTy).Contents (Elt Ideal))
    (x8 : (⟨Cert.ReferenceIdeal.S64, .f32⟩ : BufTy).Contents (Elt Ideal))
    (x9 : (⟨Cert.ReferenceIdeal.S64x1, .f32⟩ : BufTy).Contents (Elt Ideal))
    (x10 : (⟨Cert.ReferenceIdeal.S1, .f32⟩ : BufTy).Contents (Elt Ideal)) :
    head (Cert.ReferenceIdeal.Read.val_main_v104 (F := Ideal) x0 x1 x2 x3 x4 x5 x6)
        (Cert.ReferenceIdeal.Read.val_main_v113 (F := Ideal) x0 x1 x2 x3 x4 x5 x6) x7 x8 x9 x10
      = Cert.ReferenceIdeal.Read.val_main_v126 (F := Ideal) x0 x1 x2 x3 x4 x5 x6 x7 x8 x9 x10 := by
  funext i
  obtain ⟨r, s, rfl⟩ : ∃ (r : Fin 500000) (s : Fin 1), i = ix2 r s := ⟨i 0, i 1, eq_ix2 i⟩
  obtain rfl : s = 0 := Subsingleton.elim _ _
  have e117 : Cert.ReferenceIdeal.Read.val_main_v117 (F := Ideal) x0 x1 x2 x3 x4 x5 x6
      = feat (Cert.ReferenceIdeal.Read.val_main_v104 (F := Ideal) x0 x1 x2 x3 x4 x5 x6)
          (Cert.ReferenceIdeal.Read.val_main_v113 (F := Ideal) x0 x1 x2 x3 x4 x5 x6) := rfl
  rw [Cert.ReferenceIdeal.Read.val_main_v126_apply, Cert.ReferenceIdeal.Read.val_main_v123_apply,
    Cert.ReferenceIdeal.Read.val_main_v125_apply, Cert.ReferenceIdeal.Read.val_main_v124_apply]
  unfold head
  refine congrArg₂ (FloatOps.addf (F := Ideal) (φ := .f32)) (Finset.sum_congr rfl fun j _ => ?_)
    (congrArg x10 (funext fun a => Fin.ext (by match a with | ⟨0, _⟩ => rfl)))
  rw [Cert.ReferenceIdeal.Read.val_main_v122_apply, Cert.ReferenceIdeal.Read.val_main_v121_apply,
    Cert.ReferenceIdeal.Read.val_main_v118_apply, Cert.ReferenceIdeal.Read.val_main_v120_apply,
    Cert.ReferenceIdeal.Read.val_main_v119_apply, Cert.ReferenceIdeal.Read.val_main_call2_v0_apply,
    Cert.ReferenceIdeal.Read.val_main_call2_cst_apply, e117]
  have i1 : ∀ k : Fin 256, Cert.ReferenceIdeal.Read.lidx_main_v118
      (Cert.ReferenceIdeal.Read.lidx_main_v123 (ix2 r (0 : Fin 1)) j) k = ix2 r k := fun k =>
    funext fun a => Fin.ext (by match a with | ⟨0, _⟩ => rfl | ⟨1, _⟩ => rfl)
  have i2 : ∀ k : Fin 256, Cert.ReferenceIdeal.Read.ridx_main_v118
      (Cert.ReferenceIdeal.Read.lidx_main_v123 (ix2 r (0 : Fin 1)) j) k = ix2 k j := fun k =>
    funext fun a => Fin.ext (by match a with | ⟨0, _⟩ => rfl | ⟨1, _⟩ => rfl)
  have i3 : Cert.ReferenceIdeal.Read.idx_main_v119 (Cert.ReferenceIdeal.Read.idx_main_v120
      (Cert.ReferenceIdeal.Read.lidx_main_v123 (ix2 r (0 : Fin 1)) j)) = ix1 j :=
    funext fun a => Fin.ext (by match a with | ⟨0, _⟩ => rfl)
  have i4 : Cert.ReferenceIdeal.Read.ridx_main_v123 (ix2 r (0 : Fin 1)) j = ix2 j (0 : Fin 1) :=
    funext fun a => Fin.ext (by match a with | ⟨0, _⟩ => rfl | ⟨1, _⟩ => rfl)
  simp only [i1, i2, i3, i4]

end Cert.Bridge.Edge

end
-- ==== Proof.Chain.lean ====
/-
  The idealized kernel program computes the reference's function.

  Write x0 … x10 for the argument arrays. Going through the program's ten segments in order, each buffer that matters
  holds the value the reference gives the corresponding stage, as a function of the arguments:
    the rows of the edge list, the degree, the edge coefficient          (host operations, read one for one);
    the first projection  x0 · x3                                         (a grid of matrix products, block by block);
    the first aggregate                                                   (host gather, scale, scatter-add);
    max(aggregate + projection / degree + bias, 0)                        (a grid of pointwise blocks);
    the second projection, aggregate and combination                      (the same three steps again);
    the rows gathered at the pairs' endpoints                             (host gathers);
    the head: max([u, v, |u − v|, u·v] · x7 + x8, 0) · x9 + x10           (a grid of blocks);
    its column laid out flat                                              (a reshape).
  Each step uses the step before it and one fact about its own segment. The last buffer is the program's result.
-/
import proofs.«180773_j44023414784047_2_alg».proof.Proof.Launch
import proofs.«180773_j44023414784047_2_alg».proof.Proof.Carry
import proofs.«180773_j44023414784047_2_alg».proof.Proof.HostStages
import proofs.«180773_j44023414784047_2_alg».proof.Proof.RegionMatmul
import proofs.«180773_j44023414784047_2_alg».proof.Proof.RegionCombine
import proofs.«180773_j44023414784047_2_alg».proof.Proof.RegionEdge

set_option maxRecDepth 16384

noncomputable section

namespace Cert.Bridge.Chain

open Cert.KernelIdeal Cert.KernelIdeal.Gen Cert.ReferenceIdeal.Read Cert.Bridge.Carry
open Idealize.ShloMosaic Idealize.ShloMosaic.TcCoe Idealize.SL.Sem

variable (m : (ℓ : Loc nD τ sig) → Buf (Elt Ideal) ℓ) (ρ : Dev nD → PrngReg) (c : Dev nD)

/-! ## Before the first launch -/

theorem src1 : W1 m ρ c (Proc.devRef .tc main_v1) = val_main_v1 (F := Ideal) (m ((c : Thread nD τ).loc main_arg1)) :=
  Cert.Bridge.Host.src_eq (W0 m ρ c) _ rfl
theorem dst1 : W1 m ρ c (Proc.devRef .tc main_v3) = val_main_v3 (F := Ideal) (m ((c : Thread nD τ).loc main_arg1)) :=
  Cert.Bridge.Host.dst_eq (W0 m ρ c) _ rfl
theorem coef1 : W1 m ρ c (Proc.devRef .tc main_v25) = val_main_v26 (F := Ideal) (m ((c : Thread nD τ).loc main_arg1)) :=
  Cert.Bridge.Host.coef_eq (W0 m ρ c) _ rfl
theorem degcol1 : W1 m ρ c (Proc.devRef .tc main_v26)
    = shapeCast S100000x1 (val_main_v10 (F := Ideal) (m ((c : Thread nD τ).loc main_arg1))) shapeCasts_S100000_S100000x1 :=
  Cert.Bridge.Host.degcol_eq (W0 m ρ c) _ rfl

/-! ## The first layer -/

/-- The first projection. -/
theorem proj1 : W2 m ρ c (Proc.devRef .tc main_v27) = val_main_v4 (F := Ideal) (m ((c : Thread nD τ).loc main_arg0)) (m ((c : Thread nD τ).loc main_arg3)) := by
  refine (W2_arr m ρ c 2).trans ((Cert.Bridge.Matmul.final0 (V1 m ρ) c).trans ?_)
  rw [show V1 m ρ c main_arg0 = (m ((c : Thread nD τ).loc main_arg0)) from keep_arg0_1 m ρ c, show V1 m ρ c main_arg3 = (m ((c : Thread nD τ).loc main_arg3)) from keep_arg3_1 m ρ c]
  exact Cert.Bridge.Matmul.prod128_eq_ref _ _

/-- The first aggregate. -/
theorem agg1 : W3 m ρ c (Proc.devRef .tc main_v40) = val_main_v39 (F := Ideal) (m ((c : Thread nD τ).loc main_arg0)) (m ((c : Thread nD τ).loc main_arg1)) (m ((c : Thread nD τ).loc main_arg3)) :=
  Cert.Bridge.Host.agg1_eq (W2 m ρ c) _ _ _ ((keep_v1_2 m ρ c).trans (src1 m ρ c)) ((keep_v3_2 m ρ c).trans (dst1 m ρ c))
    ((keep_v25_2 m ρ c).trans (coef1 m ρ c)) (proj1 m ρ c)

/-- The degree column read at a row is the degree at that row. -/
theorem degcol_read (x1 : (⟨S2x1200000, .i32⟩ : BufTy).Contents (Elt Ideal)) (i : S100000x64.Idx) :
    shapeCast S100000x1 (val_main_v10 (F := Ideal) x1) shapeCasts_S100000_S100000x1 (Cert.Bridge.Combine.degAt i)
      = val_main_v10 (F := Ideal) x1 (Cert.Bridge.Combine.rowAt i) := by
  generalize val_main_v10 (F := Ideal) x1 = y
  exact shapeCast_apply y shapeCasts_S100000_S100000x1 _ _ (by
    rewrite [Shape.rowMajor_val_one, Shape.rowMajor_val_two]
    show (i 0).val = (i 0).val * 1 + 0
    omega)

/-- The first layer's output: max(aggregate + projection / degree + bias, 0). -/
theorem layer1 : W4 m ρ c (Proc.devRef .tc main_v41) = val_main_v49 (F := Ideal) (m ((c : Thread nD τ).loc main_arg0)) (m ((c : Thread nD τ).loc main_arg1)) (m ((c : Thread nD τ).loc main_arg3)) (m ((c : Thread nD τ).loc main_arg4)) := by
  refine (W4_arr m ρ c 4).trans ((Cert.Bridge.Combine.final1 (V3 m ρ) c).trans ?_)
  rw [show V3 m ρ c main_v40 = val_main_v39 (F := Ideal) (m ((c : Thread nD τ).loc main_arg0)) (m ((c : Thread nD τ).loc main_arg1)) (m ((c : Thread nD τ).loc main_arg3)) from agg1 m ρ c,
    show V3 m ρ c main_v27 = val_main_v4 (F := Ideal) (m ((c : Thread nD τ).loc main_arg0)) (m ((c : Thread nD τ).loc main_arg3)) from (keep_v27_3 m ρ c).trans (proj1 m ρ c),
    show V3 m ρ c main_arg4 = (m ((c : Thread nD τ).loc main_arg4)) from keep_arg4_3 m ρ c]
  refine Cert.Bridge.Combine.comb_eq_ref1 _ _ _ _ _ (fun i => ?_)
  rw [show V3 m ρ c main_v26 = shapeCast S100000x1 (val_main_v10 (F := Ideal) (m ((c : Thread nD τ).loc main_arg1))) shapeCasts_S100000_S100000x1
    from (keep_v26_3 m ρ c).trans (degcol1 m ρ c)]
  exact degcol_read _ i

/-! ## The second layer -/

/-- The second projection. -/
theorem proj2 : W5 m ρ c (Proc.devRef .tc main_v42) = val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W5_arr m ρ c 2).trans ((Cert.Bridge.Matmul.final2 (V4 m ρ) c).trans ?_)
  rw [show V4 m ρ c main_v41 = val_main_v49 (F := Ideal) (m ((c : Thread nD τ).loc main_arg0)) (m ((c : Thread nD τ).loc main_arg1)) (m ((c : Thread nD τ).loc main_arg3)) (m ((c : Thread nD τ).loc main_arg4)) from layer1 m ρ c,
    show V4 m ρ c main_arg5 = (m ((c : Thread nD τ).loc main_arg5)) from keep_arg5_4 m ρ c]
  exact Cert.Bridge.Matmul.prod64_eq_ref _ _ _ _ _

/-- The second aggregate. -/
theorem agg2 : W6 m ρ c (Proc.devRef .tc main_v55) = val_main_v85 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  Cert.Bridge.Host.agg2_eq (W5 m ρ c) _ _ _ _ _ ((keep_v1_5 m ρ c).trans (src1 m ρ c)) ((keep_v3_5 m ρ c).trans (dst1 m ρ c))
    (((keep_v25_5 m ρ c).trans (coef1 m ρ c)).trans (Cert.Bridge.Host.coef_again _).symm) (proj2 m ρ c)

/-- The second layer's output: the node embeddings. -/
theorem layer2 : W7 m ρ c (Proc.devRef .tc main_v56) = val_main_v95 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W7_arr m ρ c 4).trans ((Cert.Bridge.Combine.final3 (V6 m ρ) c).trans ?_)
  rw [show V6 m ρ c main_v55 = val_main_v85 (F := Ideal) (m ((c : Thread nD τ).loc main_arg0)) (m ((c : Thread nD τ).loc main_arg1)) (m ((c : Thread nD τ).loc main_arg3)) (m ((c : Thread nD τ).loc main_arg4)) (m ((c : Thread nD τ).loc main_arg5)) from agg2 m ρ c,
    show V6 m ρ c main_v42 = val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) from (keep_v42_6 m ρ c).trans (proj2 m ρ c),
    show V6 m ρ c main_arg6 = (m ((c : Thread nD τ).loc main_arg6)) from keep_arg6_6 m ρ c]
  refine Cert.Bridge.Combine.comb_eq_ref3 _ _ _ _ _ _ _ (fun i => ?_)
  rw [show V6 m ρ c main_v26 = shapeCast S100000x1 (val_main_v10 (F := Ideal) (m ((c : Thread nD τ).loc main_arg1))) shapeCasts_S100000_S100000x1
    from (keep_v26_6 m ρ c).trans (degcol1 m ρ c), Cert.Bridge.Host.deg_again]
  exact degcol_read _ i

/-! ## The head -/

theorem left : W8 m ρ c (Proc.devRef .tc main_v67) = val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  Cert.Bridge.Host.left_eq (W7 m ρ c) _ _ _ _ _ _ _ (keep_arg2_7 m ρ c) (layer2 m ρ c)
theorem right : W8 m ρ c (Proc.devRef .tc main_v74) = val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  Cert.Bridge.Host.right_eq (W7 m ρ c) _ _ _ _ _ _ _ (keep_arg2_7 m ρ c) (layer2 m ρ c)

/-- The head's column of scores. -/
theorem scores : W9 m ρ c (Proc.devRef .tc main_v75) = val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W9_arr m ρ c 6).trans ((Cert.Bridge.Edge.final4 (V8 m ρ) c).trans ?_)
  rw [show V8 m ρ c main_v67 = val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) from left m ρ c,
    show V8 m ρ c main_v74 = val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) from right m ρ c,
    show V8 m ρ c main_arg7 = (m ((c : Thread nD τ).loc main_arg7)) from keep_arg7_8 m ρ c, show V8 m ρ c main_arg8 = (m ((c : Thread nD τ).loc main_arg8)) from keep_arg8_8 m ρ c,
    show V8 m ρ c main_arg9 = (m ((c : Thread nD τ).loc main_arg9)) from keep_arg9_8 m ρ c, show V8 m ρ c main_arg10 = (m ((c : Thread nD τ).loc main_arg10)) from keep_arg10_8 m ρ c]
  exact Cert.Bridge.Edge.head_eq_ref _ _ _ _ _ _ _ _ _ _ _

/-- The result buffer: the scores laid out flat, which is the reference's result as a function of the arguments. -/
theorem result : W10 m ρ c (Proc.devRef .tc main_v76) = val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  Cert.Bridge.Host.flat_eq (W9 m ρ c) _ _ _ _ _ _ _ _ _ _ _ (scores m ρ c)

/-! ## The run -/

/-- Every weakly fair execution of the idealized kernel program terminates without a fault, its result buffer holding
    the reference's function of the argument arrays and the argument arrays unchanged. -/
theorem run : θ_run defs (onTc (τ := τ) (main (F := Ideal))) ⟨m, fun _ => 0, ρ⟩ (fun r => ∀ c : Dev nD,
      r.2.mem ((c.tc : Thread nD τ).loc main_v76) = val_main_v127 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Cert.Bridge.Launch.run_final m ρ (hQ := fun s h c =>
    ⟨(h c _ (mem_uc main_v76 (by decide))).trans (result m ρ c),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c),
     (h c _ (mem_uc main_arg8 (by decide))).trans (W10_main_arg8 m ρ c),
     (h c _ (mem_uc main_arg9 (by decide))).trans (W10_main_arg9 m ρ c),
     (h c _ (mem_uc main_arg10 (by decide))).trans (W10_main_arg10 m ρ c)⟩)

end Cert.Bridge.Chain

end
-- ==== Proof.lean ====
/-
  Two-layer graph convolution with an edge-pair scoring head: the tiled kernel program against the plain reference.

  Both programs compute, for node features x, an edge list (src, dst), pairs (p, q) and weights W1, b1, W2, b2, M1, mb1,
  M2, mb2: the degree deg = 1 + (number of edges into a node); the edge coefficient deg[src]^(-1/2) · deg[dst]^(-1/2);
  per layer, with h = (input) · W, the rows relu(Σ_{edges into i} coefficient · h[src] + h_i / deg_i + b); and for each
  pair, with u and v the second layer's rows at p and q, the score relu([u, v, |u − v|, u·v] · M1 + mb1) · M2 + mb2.
  The kernel program does the dense parts (the two projections, the two combinations, the head) in grids of 5000-row
  blocks and leaves the gathers and scatter-adds to the host; the reference does everything on the host, recomputing the
  degree and the coefficient for the second layer.

  On the extended reals the two agree stage by stage. The host steps are the same operations on the same operands. A
  block of a matrix product is the corresponding rows of the whole product, entry by entry the same finite sum; a change
  of float format is the identity; the combination and the head are pointwise in the row, so a block of the result is
  the result's rows. No step moves a factor across a sum or cancels anything, so nothing is asked of the inputs beyond
  what the programs need to run.

  The three run claims are the generated frames (the reference's is its generated run with the result dropped); the
  kernel program's printed idealization rewrote no operation, so the preservation claim is empty; the equality of
  results is the chain of stages in Proof/Chain.lean against the reference's generated run.
-/
import proofs.«180773_j44023414784047_2_alg».proof.Defs
import proofs.«180773_j44023414784047_2_alg».proof.Proof.Gen.Kernel
import proofs.«180773_j44023414784047_2_alg».proof.Proof.Gen.Kernel.Skeleton
import proofs.«180773_j44023414784047_2_alg».proof.Proof.Gen.Kernel.Launch
import proofs.«180773_j44023414784047_2_alg».proof.Proof.Gen.Kernel.Points
import proofs.«180773_j44023414784047_2_alg».proof.Proof.Gen.Kernel.Frame
import proofs.«180773_j44023414784047_2_alg».proof.Proof.Gen.KernelIdeal
import proofs.«180773_j44023414784047_2_alg».proof.Proof.Gen.KernelIdeal.Skeleton
import proofs.«180773_j44023414784047_2_alg».proof.Proof.Gen.KernelIdeal.Launch
import proofs.«180773_j44023414784047_2_alg».proof.Proof.Gen.KernelIdeal.Points
import proofs.«180773_j44023414784047_2_alg».proof.Proof.Gen.KernelIdeal.Frame
import proofs.«180773_j44023414784047_2_alg».proof.Proof.Gen.ReferenceIdeal
import proofs.«180773_j44023414784047_2_alg».proof.Proof.Gen.ReferenceIdeal.Run
import proofs.«180773_j44023414784047_2_alg».proof.Proof.Gen.ReferenceIdeal.Read
import proofs.«180773_j44023414784047_2_alg».proof.Proof.Gen.Pre_finite_inputs
import proofs.«180773_j44023414784047_2_alg».proof.Proof.Chain
import Idealize.ShloMosaic.Adequacy
import Idealize.ShloMosaic.Init

noncomputable section

namespace Cert.Proof

open Idealize.ShloMosaic Idealize.SL.Sem

/-- The word-level kernel program runs and keeps its arguments. -/
theorem frame_k : @Cert.frame_Kernel Cert.Kernel.Gen.facts Cert.Pre_finite_inputs.Gen.facts :=
  fun m ρ _ => Cert.Kernel.Gen.frame m ρ

/-- The idealized kernel program runs and keeps its arguments. -/
theorem frame_ki : @Cert.frame_KernelIdeal Cert.KernelIdeal.Gen.facts Cert.Pre_finite_inputs.Gen.facts :=
  fun m ρ _ => Cert.KernelIdeal.Gen.frame m ρ

/-- The reference runs and keeps its arguments: its run, with the result forgotten. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories that agree on the arguments both programs end with the same result, entry by entry: the kernel
    program's result buffer holds the reference's function of the kernel's arguments, and the reference's holds that
    function of its own arguments, which are the same arrays. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.ReferenceIdeal.Read.val_main_v127 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.Bridge.Chain.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v127_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
